-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S5000x128 : Shape := ⟨2, ![5000, 128]⟩
abbrev S690000x128 : Shape := ⟨2, ![690000, 128]⟩
abbrev S1x128 : Shape := ⟨2, ![1, 128]⟩
abbrev S50000x64 : Shape := ⟨2, ![50000, 64]⟩
abbrev S5000x64 : Shape := ⟨2, ![5000, 64]⟩
abbrev S690000x64 : Shape := ⟨2, ![690000, 64]⟩
abbrev S1x64 : Shape := ⟨2, ![1, 64]⟩

abbrev nBuf : Space → Nat
  | .hbm => 116
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S1x640000, .i32⟩
  | .hbm, ⟨15, _⟩ => ⟨S640000, .i32⟩
  | .hbm, ⟨16, _⟩ => ⟨S690000, .i32⟩
  | .hbm, ⟨17, _⟩ => ⟨S_, .f32⟩
  | .hbm, ⟨18, _⟩ => ⟨S50000, .f32⟩
  | .hbm, ⟨19, _⟩ => ⟨S_, .i32⟩
  | .hbm, ⟨20, _⟩ => ⟨S690000, .i32⟩
  | .hbm, ⟨21, _⟩ => ⟨S690000, .i1⟩
  | .hbm, ⟨22, _⟩ => ⟨S_, .i32⟩
  | .hbm, ⟨23, _⟩ => ⟨S690000, .i32⟩
  | .hbm, ⟨24, _⟩ => ⟨S690000, .i32⟩
  | .hbm, ⟨25, _⟩ => ⟨S690000, .i32⟩
  | .hbm, ⟨26, _⟩ => ⟨S690000x1, .i32⟩
  | .hbm, ⟨27, _⟩ => ⟨S_, .f32⟩
  | .hbm, ⟨28, _⟩ => ⟨S690000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S690000, .i32⟩
  | .hbm, ⟨40, _⟩ => ⟨S690000, .i1⟩
  | .hbm, ⟨41, _⟩ => ⟨S_, .i32⟩
  | .hbm, ⟨42, _⟩ => ⟨S690000, .i32⟩
  | .hbm, ⟨43, _⟩ => ⟨S690000, .i32⟩
  | .hbm, ⟨44, _⟩ => ⟨S690000, .i32⟩
  | .hbm, ⟨45, _⟩ => ⟨S690000x1, .i32⟩
  | .hbm, ⟨46, _⟩ => ⟨S690000, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000, .f32⟩
  | .hbm, ⟨56, _⟩ => ⟨S690000, .f32⟩
  | .hbm, ⟨57, _⟩ => ⟨S50000x128, .f32⟩
  | .hbm, ⟨58, _⟩ => ⟨S_, .i32⟩
  | .hbm, ⟨59, _⟩ => ⟨S690000, .i32⟩
  | .hbm, ⟨60, _⟩ => ⟨S690000, .i1⟩
  | .hbm, ⟨61, _⟩ => ⟨S_, .i32⟩
  | .hbm, ⟨62, _⟩ => ⟨S690000, .i32⟩
  | .hbm, ⟨63, _⟩ => ⟨S690000, .i32⟩
  | .hbm, ⟨64, _⟩ => ⟨S690000, .i32⟩
  | .hbm, ⟨65, _⟩ => ⟨S690000x1, .i32⟩
  | .hbm, ⟨66, _⟩ => ⟨S690000x128, .f32⟩
  | .hbm, ⟨67, _⟩ => ⟨S690000x1, .f32⟩
  | .hbm, ⟨68, _⟩ => ⟨S690000x128, .f32⟩
  | .hbm, ⟨69, _⟩ => ⟨S690000x128, .f32⟩
  | .hbm, ⟨70, _⟩ => ⟨S_, .f32⟩
  | .hbm, ⟨71, _⟩ => ⟨S50000x128, .f32⟩
  | .hbm, ⟨72, _⟩ => ⟨S690000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S690000, .i32⟩
  | .hbm, ⟨79, _⟩ => ⟨S690000, .i1⟩
  | .hbm, ⟨80, _⟩ => ⟨S_, .i32⟩
  | .hbm, ⟨81, _⟩ => ⟨S690000, .i32⟩
  | .hbm, ⟨82, _⟩ => ⟨S690000, .i32⟩
  | .hbm, ⟨83, _⟩ => ⟨S690000, .i32⟩
  | .hbm, ⟨84, _⟩ => ⟨S690000x1, .i32⟩
  | .hbm, ⟨85, _⟩ => ⟨S690000x128, .f32⟩
  | .hbm, ⟨86, _⟩ => ⟨S690000x1, .f32⟩
  | .hbm, ⟨87, _⟩ => ⟨S690000x128, .f32⟩
  | .hbm, ⟨88, _⟩ => ⟨S690000x128, .f32⟩
  | .hbm, ⟨89, _⟩ => ⟨S_, .f32⟩
  | .hbm, ⟨90, _⟩ => ⟨S50000x128, .f32⟩
  | .hbm, ⟨91, _⟩ => ⟨S690000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x64, .f32⟩
  | .hbm, ⟨96, _⟩ => ⟨S_, .i32⟩
  | .hbm, ⟨97, _⟩ => ⟨S690000, .i32⟩
  | .hbm, ⟨98, _⟩ => ⟨S690000, .i1⟩
  | .hbm, ⟨99, _⟩ => ⟨S_, .i32⟩
  | .hbm, ⟨100, _⟩ => ⟨S690000, .i32⟩
  | .hbm, ⟨101, _⟩ => ⟨S690000, .i32⟩
  | .hbm, ⟨102, _⟩ => ⟨S690000, .i32⟩
  | .hbm, ⟨103, _⟩ => ⟨S690000x1, .i32⟩
  | .hbm, ⟨104, _⟩ => ⟨S690000x64, .f32⟩
  | .hbm, ⟨105, _⟩ => ⟨S690000x1, .f32⟩
  | .hbm, ⟨106, _⟩ => ⟨S690000x64, .f32⟩
  | .hbm, ⟨107, _⟩ => ⟨S690000x64, .f32⟩
  | .hbm, ⟨108, _⟩ => ⟨S_, .f32⟩
  | .hbm, ⟨109, _⟩ => ⟨S50000x64, .f32⟩
  | .hbm, ⟨110, _⟩ => ⟨S690000x1, .i32⟩
  | .hbm, ⟨111, _⟩ => ⟨S50000x64, .f32⟩
  | .hbm, ⟨112, _⟩ => ⟨S50000x64, .f32⟩
  | .hbm, ⟨113, _⟩ => ⟨S1x64, .f32⟩
  | .hbm, ⟨114, _⟩ => ⟨S1x64, .f32⟩
  | .hbm, ⟨115, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x128, .f32⟩
  | .local _ .vmem, ⟨26, _⟩ => ⟨S5000x128, .f32⟩
  | .local _ .vmem, ⟨27, _⟩ => ⟨S128x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc6_sem3_0 : DmaSem sig := 35
abbrev cc6_sem4_0 : DmaSem sig := 36
abbrev cc6_sem4_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S50000 : S_.BroadcastsInDim S50000 (![] : Fin 0 → Fin S50000.rank)
  bcast_S_S690000 : S_.BroadcastsInDim S690000 (![] : Fin 0 → Fin S690000.rank)
  bcast_S690000_S690000x1_0 : S690000.BroadcastsInDim S690000x1 (![0] : Fin 1 → Fin S690000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S690000x1_S690000x64_0_1 : S690000x1.BroadcastsInDim S690000x64 (![0, 1] : Fin 2 → Fin S690000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x64_S5000x64_1_0_0_1_n_n_wf : DotDims.WF S5000x128 S128x64 S5000x64 [1] [0] [0] [1] [] []
  gather_S50000x64_S690000x1_S690000x64_1_0_n_n_0_1_164_wf : GatherDims.WF S50000x64 S690000x1 S690000x64 [1] [0] [] [0] [] 1 ![1, 64]
  scatter_S50000x64_S690000x1_S690000x64_1_0_0_1_wf : ScatterDims.WF S50000x64 S690000x1 S690000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S690000x1_S690000x64_1_0_n_n_0_1_164 : GatherDims S50000x64 S690000x1 S690000x64 where
  offsetDims := [1]
  collapsedSliceDims := [0]
  operandBatchingDims := []
  startIndicesBatchingDims := []
  startIndexMap := [0]
  indexVectorDim := 1
  sliceSizes := ![1, 64]
  wf := gather_S50000x64_S690000x1_S690000x64_1_0_n_n_0_1_164_wf
def scatter_S50000x64_S690000x1_S690000x64_1_0_0_1 : ScatterDims S50000x64 S690000x1 S690000x64 where
  updateWindowDims := [1]
  insertedWindowDims := [0]
  scatterDimsToOperandDims := [0]
  indexVectorDim := 1
  wf := scatter_S50000x64_S690000x1_S690000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v83) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S50000x64 : Shape := ⟨2, ![50000, 64]⟩
abbrev S690000x64 : Shape := ⟨2, ![690000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S1x640000, .i32⟩
  | .hbm, ⟨15, _⟩ => ⟨S640000, .i32⟩
  | .hbm, ⟨16, _⟩ => ⟨S690000, .i32⟩
  | .hbm, ⟨17, _⟩ => ⟨S_, .f32⟩
  | .hbm, ⟨18, _⟩ => ⟨S50000, .f32⟩
  | .hbm, ⟨19, _⟩ => ⟨S_, .i32⟩
  | .hbm, ⟨20, _⟩ => ⟨S690000, .i32⟩
  | .hbm, ⟨21, _⟩ => ⟨S690000, .i1⟩
  | .hbm, ⟨22, _⟩ => ⟨S_, .i32⟩
  | .hbm, ⟨23, _⟩ => ⟨S690000, .i32⟩
  | .hbm, ⟨24, _⟩ => ⟨S690000, .i32⟩
  | .hbm, ⟨25, _⟩ => ⟨S690000, .i32⟩
  | .hbm, ⟨26, _⟩ => ⟨S690000x1, .i32⟩
  | .hbm, ⟨27, _⟩ => ⟨S_, .f32⟩
  | .hbm, ⟨28, _⟩ => ⟨S690000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S690000, .i32⟩
  | .hbm, ⟨40, _⟩ => ⟨S690000, .i1⟩
  | .hbm, ⟨41, _⟩ => ⟨S_, .i32⟩
  | .hbm, ⟨42, _⟩ => ⟨S690000, .i32⟩
  | .hbm, ⟨43, _⟩ => ⟨S690000, .i32⟩
  | .hbm, ⟨44, _⟩ => ⟨S690000, .i32⟩
  | .hbm, ⟨45, _⟩ => ⟨S690000x1, .i32⟩
  | .hbm, ⟨46, _⟩ => ⟨S690000, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000, .f32⟩
  | .hbm, ⟨56, _⟩ => ⟨S690000, .f32⟩
  | .hbm, ⟨57, _⟩ => ⟨S50000x128, .f32⟩
  | .hbm, ⟨58, _⟩ => ⟨S_, .i32⟩
  | .hbm, ⟨59, _⟩ => ⟨S690000, .i32⟩
  | .hbm, ⟨60, _⟩ => ⟨S690000, .i1⟩
  | .hbm, ⟨61, _⟩ => ⟨S_, .i32⟩
  | .hbm, ⟨62, _⟩ => ⟨S690000, .i32⟩
  | .hbm, ⟨63, _⟩ => ⟨S690000, .i32⟩
  | .hbm, ⟨64, _⟩ => ⟨S690000, .i32⟩
  | .hbm, ⟨65, _⟩ => ⟨S690000x1, .i32⟩
  | .hbm, ⟨66, _⟩ => ⟨S690000x128, .f32⟩
  | .hbm, ⟨67, _⟩ => ⟨S690000x1, .f32⟩
  | .hbm, ⟨68, _⟩ => ⟨S690000x128, .f32⟩
  | .hbm, ⟨69, _⟩ => ⟨S690000x128, .f32⟩
  | .hbm, ⟨70, _⟩ => ⟨S_, .f32⟩
  | .hbm, ⟨71, _⟩ => ⟨S50000x128, .f32⟩
  | .hbm, ⟨72, _⟩ => ⟨S690000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .i32⟩
  | .hbm, ⟨82, _⟩ => ⟨S690000, .i32⟩
  | .hbm, ⟨83, _⟩ => ⟨S690000, .i1⟩
  | .hbm, ⟨84, _⟩ => ⟨S_, .i32⟩
  | .hbm, ⟨85, _⟩ => ⟨S690000, .i32⟩
  | .hbm, ⟨86, _⟩ => ⟨S690000, .i32⟩
  | .hbm, ⟨87, _⟩ => ⟨S690000, .i32⟩
  | .hbm, ⟨88, _⟩ => ⟨S690000x1, .i32⟩
  | .hbm, ⟨89, _⟩ => ⟨S690000x128, .f32⟩
  | .hbm, ⟨90, _⟩ => ⟨S690000x1, .f32⟩
  | .hbm, ⟨91, _⟩ => ⟨S690000x128, .f32⟩
  | .hbm, ⟨92, _⟩ => ⟨S690000x128, .f32⟩
  | .hbm, ⟨93, _⟩ => ⟨S_, .f32⟩
  | .hbm, ⟨94, _⟩ => ⟨S50000x128, .f32⟩
  | .hbm, ⟨95, _⟩ => ⟨S690000x1, .i32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .hbm, ⟨103, _⟩ => ⟨S50000x64, .f32⟩
  | .hbm, ⟨104, _⟩ => ⟨S_, .i32⟩
  | .hbm, ⟨105, _⟩ => ⟨S690000, .i32⟩
  | .hbm, ⟨106, _⟩ => ⟨S690000, .i1⟩
  | .hbm, ⟨107, _⟩ => ⟨S_, .i32⟩
  | .hbm, ⟨108, _⟩ => ⟨S690000, .i32⟩
  | .hbm, ⟨109, _⟩ => ⟨S690000, .i32⟩
  | .hbm, ⟨110, _⟩ => ⟨S690000, .i32⟩
  | .hbm, ⟨111, _⟩ => ⟨S690000x1, .i32⟩
  | .hbm, ⟨112, _⟩ => ⟨S690000x64, .f32⟩
  | .hbm, ⟨113, _⟩ => ⟨S690000x1, .f32⟩
  | .hbm, ⟨114, _⟩ => ⟨S690000x64, .f32⟩
  | .hbm, ⟨115, _⟩ => ⟨S690000x64, .f32⟩
  | .hbm, ⟨116, _⟩ => ⟨S_, .f32⟩
  | .hbm, ⟨117, _⟩ => ⟨S50000x64, .f32⟩
  | .hbm, ⟨118, _⟩ => ⟨S690000x1, .i32⟩
  | .hbm, ⟨119, _⟩ => ⟨S50000x64, .f32⟩
  | .hbm, ⟨120, _⟩ => ⟨S1x64, .f32⟩
  | .hbm, ⟨121, _⟩ => ⟨S50000x64, .f32⟩
  | .hbm, ⟨122, _⟩ => ⟨S50000x64, .f32⟩
  | .hbm, ⟨123, _⟩ => ⟨S50000x64, .f32⟩
  | .hbm, ⟨124, _⟩ => ⟨S1x64, .f32⟩
  | .hbm, ⟨125, _⟩ => ⟨S50000x64, .f32⟩
  | .hbm, ⟨126, _⟩ => ⟨S50000x64, .f32⟩
  | .hbm, ⟨127, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call2_cst : Ref sig .tc := ⟨.hbm, 100, rfl⟩
abbrev main_call2_v0 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_c_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S50000 : S_.BroadcastsInDim S50000 (![] : Fin 0 → Fin S50000.rank)
  bcast_S_S690000 : S_.BroadcastsInDim S690000 (![] : Fin 0 → Fin S690000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S690000x1_S690000x64_0_1 : S690000x1.BroadcastsInDim S690000x64 (![0, 1] : Fin 2 → Fin S690000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x64_S50000x64_1_0_0_1_n_n_wf : DotDims.WF S50000x128 S128x64 S50000x64 [1] [0] [0] [1] [] []
  gather_S50000x64_S690000x1_S690000x64_1_0_n_n_0_1_164_wf : GatherDims.WF S50000x64 S690000x1 S690000x64 [1] [0] [] [0] [] 1 ![1, 64]
  scatter_S50000x64_S690000x1_S690000x64_1_0_0_1_wf : ScatterDims.WF S50000x64 S690000x1 S690000x64 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S690000x1_S690000x64_1_0_n_n_0_1_164 : GatherDims S50000x64 S690000x1 S690000x64 where
  offsetDims := [1]
  collapsedSliceDims := [0]
  operandBatchingDims := []
  startIndicesBatchingDims := []
  startIndexMap := [0]
  indexVectorDim := 1
  sliceSizes := ![1, 64]
  wf := gather_S50000x64_S690000x1_S690000x64_1_0_n_n_0_1_164_wf
def scatter_S50000x64_S690000x1_S690000x64_1_0_0_1 : ScatterDims S50000x64 S690000x1 S690000x64 where
  updateWindowDims := [1]
  insertedWindowDims := [0]
  scatterDimsToOperandDims := [0]
  indexVectorDim := 1
  wf := scatter_S50000x64_S690000x1_S690000x64_1_0_0_1_wf

class Facts : Prop extends Facts₀ where

variable [Facts]
-- ==== Proof.RunNamed.lean ====
/-
  The run of the whole program with its result named.

  The program is seven kernel regions among stretches of host operations. Its frame proof establishes, on the way,
  that at the end every buffer of a core holds the contents of the last boundary of the fold through the program's
  segments; the frame claim keeps only the argument arrays of that. Kept here as well: the result buffer, which ends
  holding the last boundary's contents at it. What those contents are is the business of the other modules.
-/
import proofs.«159940_j11510512353283_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v84) = W14 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v84 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Named

end
-- ==== Proof.GraphNorm.lean ====
/-
  The edge lists and the edge weights, as the kernel's program holds them at its boundaries.

  Before its first region the program builds, from the edge-index argument alone, the source and target node of every
  edge with the self-loops appended, the degree of every node as a scattered sum of ones, its inverse square root where
  the degree is positive and zero elsewhere, and the weight of every edge as the product of the two gathered factors.
  These are the operations the reference applies, in the same order, to the same argument: read off the fold of the
  program's host operations, each buffer holds the reference's stage of the edge-index argument. No later host
  operation and no region writes these buffers, so the three of them that the layers read (sources, targets, weights)
  hold the same contents wherever a layer reads them.
-/
import proofs.«159940_j11510512353283_1_alg».proof.Proof.Gen.KernelIdeal.Frame
import proofs.«159940_j11510512353283_1_alg».proof.Proof.RefReadPatched
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
open Idealize.ShloMosaic.Pipeline (Dat)

namespace Cert.KernelIdeal.Boundary

open Cert.KernelIdeal Cert.KernelIdeal.Gen Cert.ReferenceIdeal.ReadP

variable (m : (ℓ : Loc nD τ sig) → Buf (Elt Ideal) ℓ) (ρ : Dev nD → PrngReg)

/-- A host stretch leaves a buffer that none of its operations writes as it found it. -/
macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- Open the reference's stage definitions, so that both sides of an equation spell the operations themselves and are
    compared operation by operation, never by evaluating one. (Where an equation's inputs are themselves stages, only
    the stages between the inputs and the output are opened, by name: the inputs stand as they are on both sides.) -/
macro "open_stages" : tactic => `(tactic| simp only [val_main_v0, val_main_v1, val_main_v2, val_main_v3, val_main_v4, val_main_v5, val_main_v6, val_main_cst, val_main_v7, val_main_c, val_main_v8, val_main_v9, val_main_c_0, val_main_v10, val_main_v11, val_main_v12, val_main_v13, val_main_cst_1, val_main_v14, val_main_v15, val_main_cst_2, val_main_v16, val_main_v17, val_main_v18, val_main_cst_3, val_main_call0_v0, val_main_call0_v1, val_main_v19, val_main_c_4, val_main_v20, val_main_v21, val_main_c_5, val_main_v22, val_main_v23, val_main_v24, val_main_v25, val_main_v26, val_main_c_6, val_main_v27, val_main_v28, val_main_c_7, val_main_v29, val_main_v30, val_main_v31, val_main_v32, val_main_v33, val_main_v34, val_main_v35, val_main_c_8, val_main_v36, val_main_v37, val_main_c_9, val_main_v38, val_main_v39, val_main_v40, val_main_v41, val_main_v42, val_main_v43, val_main_v44, val_main_v45, val_main_cst_10, val_main_v46, val_main_v47, val_main_v48, val_main_v49, val_main_v50, val_main_v51, val_main_call1_cst, val_main_call1_v0, val_main_v52, val_main_v53, val_main_c_11, val_main_v54, val_main_v55, val_main_c_12, val_main_v56, val_main_v57, val_main_v58, val_main_v59, val_main_v60, val_main_v61, val_main_v62, val_main_v63, val_main_cst_13, val_main_v64, val_main_v65, val_main_v66, val_main_v67, val_main_v68, val_main_v69, val_main_call2_cst, val_main_call2_v0, val_main_v70, val_main_v71, val_main_c_14, val_main_v72, val_main_v73, val_main_c_15, val_main_v74, val_main_v75, val_main_v76, val_main_v77, val_main_v78, val_main_v79, val_main_v80, val_main_v81, val_main_cst_16, val_main_v82, val_main_v83, val_main_v84, val_main_v85, val_main_v86, val_main_v87, val_main_v88, val_main_v89, val_main_v90, val_main_v91, val_main_v92])

/-! ## After the first stretch: edge lists, degrees -/

set_option maxHeartbeats 4000000 in
/-- The source node of every edge, self-loops appended. -/
theorem sources_at1 (c : Dev nD) : W1 m ρ c (Proc.devRef .tc main_v3) = val_main_v3 (F := Ideal) (m ((c : Thread nD τ).loc main_arg1)) := by
  have h0 : W0 m ρ c (Proc.devRef .tc main_arg1) = m ((c : Thread nD τ).loc main_arg1) := rfl
  show StableHlo.after hostOps0 (W0 m ρ c) (Proc.devRef .tc main_v3) = _
  generalize W0 m ρ c = U at h0 ⊢
  after_results
  rw [h0]
  open_stages <;> rfl
set_option maxHeartbeats 4000000 in
/-- The target node of every edge, self-loops appended. -/
theorem targets_at1 (c : Dev nD) : W1 m ρ c (Proc.devRef .tc main_v6) = val_main_v6 (F := Ideal) (m ((c : Thread nD τ).loc main_arg1)) := by
  have h0 : W0 m ρ c (Proc.devRef .tc main_arg1) = m ((c : Thread nD τ).loc main_arg1) := rfl
  show StableHlo.after hostOps0 (W0 m ρ c) (Proc.devRef .tc main_v6) = _
  generalize W0 m ρ c = U at h0 ⊢
  after_results
  rw [h0]
  open_stages <;> rfl
set_option maxHeartbeats 4000000 in
/-- Where a node's degree is positive. -/
theorem degPositive_at1 (c : Dev nD) : W1 m ρ c (Proc.devRef .tc main_v17) = val_main_v17 (F := Ideal) (m ((c : Thread nD τ).loc main_arg1)) := by
  have h0 : W0 m ρ c (Proc.devRef .tc main_arg1) = m ((c : Thread nD τ).loc main_arg1) := rfl
  show StableHlo.after hostOps0 (W0 m ρ c) (Proc.devRef .tc main_v17) = _
  generalize W0 m ρ c = U at h0 ⊢
  after_results
  rw [h0]
  open_stages <;> rfl
set_option maxHeartbeats 4000000 in
/-- The inverse square root of every node's degree. -/
theorem degRsqrt_at1 (c : Dev nD) : W1 m ρ c (Proc.devRef .tc main_v18) = val_main_v18 (F := Ideal) (m ((c : Thread nD τ).loc main_arg1)) := by
  have h0 : W0 m ρ c (Proc.devRef .tc main_arg1) = m ((c : Thread nD τ).loc main_arg1) := rfl
  show StableHlo.after hostOps0 (W0 m ρ c) (Proc.devRef .tc main_v18) = _
  generalize W0 m ρ c = U at h0 ⊢
  after_results
  rw [h0]
  open_stages <;> rfl
set_option maxHeartbeats 4000000 in
/-- The zero that stands where the degree is not positive. -/
theorem zero_at1 (c : Dev nD) : W1 m ρ c (Proc.devRef .tc main_cst_3) = val_main_cst_3 (F := Ideal) := by
  show StableHlo.after hostOps0 (W0 m ρ c) (Proc.devRef .tc main_cst_3) = _
  generalize W0 m ρ c = U
  after_results
  open_stages <;> rfl

/-! ## After the selection: the inverse square root of the degree where positive, zero elsewhere -/

set_option maxHeartbeats 4000000 in
/-- The per-node factor of the edge weights. -/
theorem dinv_at2 (c : Dev nD) : W2 m ρ c (Proc.devRef .tc main_v19) = val_main_v19 (F := Ideal) (m ((c : Thread nD τ).loc main_arg1)) := by
  have h0 := degPositive_at1 m ρ c
  have h1 := degRsqrt_at1 m ρ c
  have h2 := zero_at1 m ρ c
  show StableHlo.after hostOps0_1 (W1 m ρ c) (Proc.devRef .tc main_v19) = _
  generalize W1 m ρ c = U at h0 h1 h2 ⊢
  -- the three operations of the called selection, at these literal buffers, compute to the selection itself
  show (select (U (Proc.devRef .tc main_v17)) (U (Proc.devRef .tc main_v18))
      (broadcastInDim S50000 ![] bcast_S_S50000 (id (U (Proc.devRef .tc main_cst_3)))) : FVec Ideal S50000 .f32) = _
  rw [h0, h1, h2]
  rfl
/-- The selection does not touch the sources. -/
theorem sources_at2 (c : Dev nD) : W2 m ρ c (Proc.devRef .tc main_v3) = val_main_v3 (F := Ideal) (m ((c : Thread nD τ).loc main_arg1)) :=
  calc W2 m ρ c (Proc.devRef .tc main_v3)
    _ = W1 m ρ c (Proc.devRef .tc main_v3) := by stretch_keeps hostOps0_1
    _ = val_main_v3 (F := Ideal) (m ((c : Thread nD τ).loc main_arg1)) := sources_at1 m ρ c
/-- The selection does not touch the targets. -/
theorem targets_at2 (c : Dev nD) : W2 m ρ c (Proc.devRef .tc main_v6) = val_main_v6 (F := Ideal) (m ((c : Thread nD τ).loc main_arg1)) :=
  calc W2 m ρ c (Proc.devRef .tc main_v6)
    _ = W1 m ρ c (Proc.devRef .tc main_v6) := by stretch_keeps hostOps0_1
    _ = val_main_v6 (F := Ideal) (m ((c : Thread nD τ).loc main_arg1)) := targets_at1 m ρ c

/-! ## When the first region is entered: the edge weights -/

set_option maxHeartbeats 4000000 in
/-- The weight of every edge: the two gathered per-node factors multiplied. -/
theorem weights_at3 (c : Dev nD) : W3 m ρ c (Proc.devRef .tc main_v34) = val_main_v34 (F := Ideal) (m ((c : Thread nD τ).loc main_arg1)) := by
  have h0 := dinv_at2 m ρ c
  have h1 := sources_at2 m ρ c
  have h2 := targets_at2 m ρ c
  show StableHlo.after hostOps0_2 (W2 m ρ c) (Proc.devRef .tc main_v34) = _
  generalize W2 m ρ c = U at h0 h1 h2 ⊢
  after_results
  rw [h0, h1, h2]
  simp only [val_main_c_4, val_main_v20, val_main_v21, val_main_c_5, val_main_v22, val_main_v23, val_main_v24, val_main_v25, val_main_v26, val_main_c_6, val_main_v27, val_main_v28, val_main_c_7, val_main_v29, val_main_v30, val_main_v31, val_main_v32, val_main_v33, val_main_v34] <;> rfl
/-- Gathering the factors does not touch the sources. -/
theorem sources_at3 (c : Dev nD) : W3 m ρ c (Proc.devRef .tc main_v3) = val_main_v3 (F := Ideal) (m ((c : Thread nD τ).loc main_arg1)) :=
  calc W3 m ρ c (Proc.devRef .tc main_v3)
    _ = W2 m ρ c (Proc.devRef .tc main_v3) := by stretch_keeps hostOps0_2
    _ = val_main_v3 (F := Ideal) (m ((c : Thread nD τ).loc main_arg1)) := sources_at2 m ρ c
/-- Gathering the factors does not touch the targets. -/
theorem targets_at3 (c : Dev nD) : W3 m ρ c (Proc.devRef .tc main_v6) = val_main_v6 (F := Ideal) (m ((c : Thread nD τ).loc main_arg1)) :=
  calc W3 m ρ c (Proc.devRef .tc main_v6)
    _ = W2 m ρ c (Proc.devRef .tc main_v6) := by stretch_keeps hostOps0_2
    _ = val_main_v6 (F := Ideal) (m ((c : Thread nD τ).loc main_arg1)) := targets_at2 m ρ c

/-! ## Where the three layers read them: after the first, the third and the fifth region -/

/-- The sources where the first layer's messages are formed. -/
theorem sources_at4 (c : Dev nD) : W4 m ρ c (Proc.devRef .tc main_v3) = val_main_v3 (F := Ideal) (m ((c : Thread nD τ).loc main_arg1)) :=
  calc W4 m ρ c (Proc.devRef .tc main_v3)
    _ = W3 m ρ c (Proc.devRef .tc main_v3) := W4_of_ne m ρ c main_v3 (by decide)
    _ = val_main_v3 (F := Ideal) (m ((c : Thread nD τ).loc main_arg1)) := sources_at3 m ρ c
/-- The sources where the second layer's messages are formed. -/
theorem sources_at7 (c : Dev nD) : W7 m ρ c (Proc.devRef .tc main_v3) = val_main_v3 (F := Ideal) (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by stretch_keeps hostOps1
    _ = val_main_v3 (F := Ideal) (m ((c : Thread nD τ).loc main_arg1)) := sources_at4 m ρ c
/-- The sources where the third layer's messages are formed. -/
theorem sources_at10 (c : Dev nD) : W10 m ρ c (Proc.devRef .tc main_v3) = val_main_v3 (F := Ideal) (m ((c : Thread nD τ).loc main_arg1)) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by stretch_keeps hostOps3
    _ = val_main_v3 (F := Ideal) (m ((c : Thread nD τ).loc main_arg1)) := sources_at7 m ρ c
/-- The targets where the first layer's messages are formed. -/
theorem targets_at4 (c : Dev nD) : W4 m ρ c (Proc.devRef .tc main_v6) = val_main_v6 (F := Ideal) (m ((c : Thread nD τ).loc main_arg1)) :=
  calc W4 m ρ c (Proc.devRef .tc main_v6)
    _ = W3 m ρ c (Proc.devRef .tc main_v6) := W4_of_ne m ρ c main_v6 (by decide)
    _ = val_main_v6 (F := Ideal) (m ((c : Thread nD τ).loc main_arg1)) := targets_at3 m ρ c
/-- The targets where the second layer's messages are formed. -/
theorem targets_at7 (c : Dev nD) : W7 m ρ c (Proc.devRef .tc main_v6) = val_main_v6 (F := Ideal) (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by stretch_keeps hostOps1
    _ = val_main_v6 (F := Ideal) (m ((c : Thread nD τ).loc main_arg1)) := targets_at4 m ρ c
/-- The targets where the third layer's messages are formed. -/
theorem targets_at10 (c : Dev nD) : W10 m ρ c (Proc.devRef .tc main_v6) = val_main_v6 (F := Ideal) (m ((c : Thread nD τ).loc main_arg1)) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by stretch_keeps hostOps3
    _ = val_main_v6 (F := Ideal) (m ((c : Thread nD τ).loc main_arg1)) := targets_at7 m ρ c
/-- The weights where the first layer's messages are formed. -/
theorem weights_at4 (c : Dev nD) : W4 m ρ c (Proc.devRef .tc main_v34) = val_main_v34 (F := Ideal) (m ((c : Thread nD τ).loc main_arg1)) :=
  calc W4 m ρ c (Proc.devRef .tc main_v34)
    _ = W3 m ρ c (Proc.devRef .tc main_v34) := W4_of_ne m ρ c main_v34 (by decide)
    _ = val_main_v34 (F := Ideal) (m ((c : Thread nD τ).loc main_arg1)) := weights_at3 m ρ c
/-- The weights where the second layer's messages are formed. -/
theorem weights_at7 (c : Dev nD) : W7 m ρ c (Proc.devRef .tc main_v34) = val_main_v34 (F := Ideal) (m ((c : Thread nD τ).loc main_arg1)) :=
  calc W7 m ρ c (Proc.devRef .tc main_v34)
    _ = W6 m ρ c (Proc.devRef .tc main_v34) := W7_of_ne m ρ c main_v34 (by decide)
    _ = W5 m ρ c (Proc.devRef .tc main_v34) := W6_of_ne m ρ c main_v34 (by decide)
    _ = W4 m ρ c (Proc.devRef .tc main_v34) := by stretch_keeps hostOps1
    _ = val_main_v34 (F := Ideal) (m ((c : Thread nD τ).loc main_arg1)) := weights_at4 m ρ c
/-- The weights where the third layer's messages are formed. -/
theorem weights_at10 (c : Dev nD) : W10 m ρ c (Proc.devRef .tc main_v34) = val_main_v34 (F := Ideal) (m ((c : Thread nD τ).loc main_arg1)) :=
  calc W10 m ρ c (Proc.devRef .tc main_v34)
    _ = W9 m ρ c (Proc.devRef .tc main_v34) := W10_of_ne m ρ c main_v34 (by decide)
    _ = W8 m ρ c (Proc.devRef .tc main_v34) := W9_of_ne m ρ c main_v34 (by decide)
    _ = W7 m ρ c (Proc.devRef .tc main_v34) := by stretch_keeps hostOps3
    _ = val_main_v34 (F := Ideal) (m ((c : Thread nD τ).loc main_arg1)) := weights_at7 m ρ c

end Cert.KernelIdeal.Boundary

end
-- ==== Proof.BlockProduct.lean ====
/-
  One row block of a matrix times a resident matrix, read entry by entry at the exact values.

  The kernels that multiply stage a block of 5000 rows (all 128 columns) of the left matrix and the whole right
  matrix, round both to bf16 and feed the systolic product into a zero accumulator. At the exact values the rounding
  is the identity and the accumulator contributes nothing, so entry (p, q) of the block's result is
  the sum over k < 128 of left (p, k) * right (k, q). Two right-hand widths occur: 128 and 64 columns.
-/
import proofs.«159940_j11510512353283_1_alg».proof.Proof.Gen.KernelIdeal
import Idealize.ShloMosaic.PureOps.Ideal.Laws
import Idealize.ShloMosaic.Lib.ValueIdx

noncomputable section

namespace Cert.KernelIdeal.BlockProduct

open Cert.KernelIdeal Idealize.ShloMosaic Idealize.ShloMosaic.TcCoe

theorem lhs128_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `y`, `k`) of the 5000 x 128 block. -/
abbrev left128 (y : S5000x128.Idx) (k : Fin 128) : S5000x128.Idx := fun a => match a with
  | ⟨0, _⟩ => ⟨(y 0).val, (y 0).isLt⟩
  | ⟨1, _⟩ => ⟨k.val, k.isLt⟩
/-- Entry (`k`, column of `y`) of the resident 128 x 128 matrix. -/
abbrev right128 (y : S5000x128.Idx) (k : Fin 128) : S128x128.Idx := fun a => match a with
  | ⟨0, _⟩ => ⟨k.val, k.isLt⟩
  | ⟨1, _⟩ => ⟨(y 1).val, (y 1).isLt⟩

/-- The systolic product of a 5000 x 128 block and the 128 x 128 matrix into a zero accumulator, at entry `y`:
    the sum over the shared axis. -/
theorem product128_apply (x : FVec Ideal S5000x128 .f32) (w : FVec Ideal S128x128 .f32) (y : S5000x128.Idx) :
    FloatOps.matmul (F := Ideal) dot_S5000x128_S128x128_S5000x128_1_0_0_1_n_n none x w (constant (F := Ideal) S5000x128 .f32 0x00000000#32) y
      = ∑ k : Fin 128, x (left128 y k) * w (right128 y k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = left128 y k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx y ((ValueIdx.contrEquiv1 dot_S5000x128_S128x128_S5000x128_1_0_0_1_n_n 128 rfl rfl).symm k) = right128 y k := funext fun a => Fin.ext (by
    match a with
    | ⟨0, _⟩ => exact (rhs128_0 _ _).trans hk
    | ⟨1, _⟩ => exact rhs128_1 _ _)
  rw [el, er]

theorem lhs64_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (row of `y`, `k`) of the 5000 x 128 block. -/
abbrev left64 (y : S5000x64.Idx) (k : Fin 128) : S5000x128.Idx := fun a => match a with
  | ⟨0, _⟩ => ⟨(y 0).val, (y 0).isLt⟩
  | ⟨1, _⟩ => ⟨k.val, k.isLt⟩
/-- Entry (`k`, column of `y`) of the resident 128 x 64 matrix. -/
abbrev right64 (y : S5000x64.Idx) (k : Fin 128) : S128x64.Idx := fun a => match a with
  | ⟨0, _⟩ => ⟨k.val, k.isLt⟩
  | ⟨1, _⟩ => ⟨(y 1).val, (y 1).isLt⟩

/-- The systolic product of a 5000 x 128 block and the 128 x 64 matrix into a zero accumulator, at entry `y`:
    the sum over the shared axis. -/
theorem product64_apply (x : FVec Ideal S5000x128 .f32) (w : FVec Ideal S128x64 .f32) (y : S5000x64.Idx) :
    FloatOps.matmul (F := Ideal) dot_S5000x128_S128x64_S5000x64_1_0_0_1_n_n none x w (constant (F := Ideal) S5000x64 .f32 0x00000000#32) y
      = ∑ k : Fin 128, x (left64 y k) * w (right64 y k) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx y ((ValueIdx.contrEquiv1 dot_S5000x128_S128x64_S5000x64_1_0_0_1_n_n 128 rfl rfl).symm k) = left64 y k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx y ((ValueIdx.contrEquiv1 dot_S5000x128_S128x64_S5000x64_1_0_0_1_n_n 128 rfl rfl).symm k) = right64 y k := funext fun a => Fin.ext (by
    match a with
    | ⟨0, _⟩ => exact (rhs64_0 _ _).trans hk
    | ⟨1, _⟩ => exact rhs64_1 _ _)
  rw [el, er]

end Cert.KernelIdeal.BlockProduct

end
-- ==== Proof.RowsProduct.lean ====
/-
  What a multiplying region leaves in its output array, as one function of the two arrays it reads.

  Four of the program's seven regions multiply: each walks the 50000 rows of its left array in ten blocks of 5000
  rows, keeps the right matrix resident, and writes block `t` of the result at grid point `t`. By the block
  product read entry by entry, what point `t` writes back is block `t` of the plain matrix product
  (row `5000 t + p` of the left array against the columns of the right matrix), and the ten blocks tile the output's
  rows, so the output array ends holding the product. This holds for whatever the core's buffers hold when the
  region is entered (`V`).
-/
import proofs.«159940_j11510512353283_1_alg».proof.Proof.Gen.KernelIdeal.Frame
import proofs.«159940_j11510512353283_1_alg».proof.Proof.BlockProduct
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.RowsProduct

open Cert.KernelIdeal Cert.KernelIdeal.Gen Cert.KernelIdeal.BlockProduct

variable (V : (c : Dev nD) → (b : Ref sig .tc) → Buf (Elt Ideal) ((c : Thread nD τ).loc b))

theorem hz : (![0, 0] : Fin 2 → Nat) = fun _ => 0 := funext fun a => by fin_cases a <;> rfl

/-- Entry (row of `i`, `k`) of a 50000 x 128 array, `i` an entry of a 50000 x 128 array. -/
abbrev rowAt (i : S50000x128.Idx) (k : Fin 128) : S50000x128.Idx := fun a => match a with
  | ⟨0, _⟩ => ⟨(i 0).val, (i 0).isLt⟩
  | ⟨1, _⟩ => ⟨k.val, k.isLt⟩
/-- Entry (`k`, column of `i`) of the 128 x 128 matrix. -/
abbrev colAt128 (i : S50000x128.Idx) (k : Fin 128) : S128x128.Idx := fun a => match a with
  | ⟨0, _⟩ => ⟨k.val, k.isLt⟩
  | ⟨1, _⟩ => ⟨(i 1).val, (i 1).isLt⟩
/-- Entry (row of `i`, `k`) of a 50000 x 128 array, `i` an entry of a 50000 x 64 array. -/
abbrev rowAt64 (i : S50000x64.Idx) (k : Fin 128) : S50000x128.Idx := fun a => match a with
  | ⟨0, _⟩ => ⟨(i 0).val, (i 0).isLt⟩
  | ⟨1, _⟩ => ⟨k.val, k.isLt⟩
/-- Entry (`k`, column of `i`) of the 128 x 64 matrix. -/
abbrev colAt64 (i : S50000x64.Idx) (k : Fin 128) : S128x64.Idx := fun a => match a with
  | ⟨0, _⟩ => ⟨k.val, k.isLt⟩
  | ⟨1, _⟩ => ⟨(i 1).val, (i 1).isLt⟩

/-- The product of a 50000 x 128 array and a 128 x 128 matrix, entry by entry. -/
def timesRows128 (X : FVec Ideal S50000x128 .f32) (W : FVec Ideal S128x128 .f32) : FVec Ideal S50000x128 .f32 :=
  fun i => ∑ k : Fin 128, X (rowAt i k) * W (colAt128 i k)
/-- The product of a 50000 x 128 array and a 128 x 64 matrix, entry by entry. -/
def timesRows64 (X : FVec Ideal S50000x128 .f32) (W : FVec Ideal S128x64 .f32) : FVec Ideal S50000x64 .f32 :=
  fun i => ∑ k : Fin 128, X (rowAt64 i k) * W (colAt64 i k)

/-! ## Region 0: the node features times the first layer's weights -/

/-- Where the printed index maps put the blocks at grid point `t`: the row-tiled windows at block row `t`,
    the resident matrix at its only block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `j` of the left window's block at point `t` is row `5000 t + j` of its array. -/
theorem left0_apply (c : Dev nD) (t : Fin cfg0.N) (j : S5000x128.Idx) (i : S50000x128.Idx)
    (h0 : (i 0).val = 5000 * t.val + (j 0).val) (h1 : (i 1).val = (j 1).val) :
    (iblk0 V c 0 t : Vec Ideal S5000x128 .f32) j = (V c main_arg0 : S50000x128.Idx → Elt Ideal .f32) i := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t 0 * 5000 + 1 * (j 0).val = (i 0).val; rw [e0, h0]; omega
  | ⟨1, _⟩ => show win0_0.index t 1 * 128 + 1 * (j 1).val = (i 1).val; rw [e1, h1]; omega

/-- The resident matrix's block is the matrix. -/
theorem right0_apply (c : Dev nD) (t : Fin cfg0.N) (j : S128x128.Idx) :
    (iblk0 V c 1 t : Vec Ideal S128x128 .f32) j = (V c main_arg2 : S128x128.Idx → Elt Ideal .f32) j := by
  obtain ⟨-, -, e2, e3, -, -⟩ := idx0 t
  unfold iblk0
  rw [View.read_apply]
  show V c main_arg2 _ = V c main_arg2 _
  congr 1
  funext a
  apply Fin.ext
  match a with
  | ⟨0, _⟩ => show win0_1.index t 0 * 128 + 1 * (j 0).val = (j 0).val; rw [e2]; omega
  | ⟨1, _⟩ => show win0_1.index t 1 * 128 + 1 * (j 1).val = (j 1).val; rw [e3]; omega

/-- What point `t` writes back is block `t` of the product of the two arrays the region reads. -/
theorem flushed0 (c : Dev nD) (t : Fin cfg0.N) :
    (dat0 V c).flushed 2 t = ((cfg0.win 2).blk t).view.read (Elt Ideal) (timesRows128 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx0 t
  funext y
  show k0_pay1 (iblk0 V c 0 t) (iblk0 V c 1 t) y
    = timesRows128 (V c main_arg0) (V c main_arg2) (((cfg0.win 2).blk t).view.emb y)
  refine (product128_apply _ _ y).trans ?_
  refine Finset.sum_congr rfl fun k _ => ?_
  have hy0 : (y 0).val < 5000 := (y 0).isLt
  refine congrArg₂ (· * ·) ?_ ?_
  · refine left0_apply V c t (left128 y k) (rowAt (((cfg0.win 2).blk t).view.emb y) k) ?_ ?_
    · show win0_2.index t 0 * 5000 + 1 * (y 0).val = 5000 * t.val + (y 0).val
      rw [e4]; omega
    · rfl
  · refine (right0_apply V c t (right128 y k)).trans ?_
    refine congrArg (V c main_arg2 : S128x128.Idx → Elt Ideal .f32) ?_
    funext a
    apply Fin.ext
    match a with
    | ⟨0, _⟩ => rfl
    | ⟨1, _⟩ => show (y 1).val = win0_2.index t 1 * 128 + 1 * (y 1).val; rw [e5]; omega

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- The ten row blocks cover the array: row `r` is in the block of point `r / 5000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; rw [hN]; omega⟩
  obtain ⟨-, -, -, -, e4, e5⟩ := idx0 t
  refine ⟨t, flush0_2 t, ?_⟩
  rw [mem_blk0]
  intro a
  match a with
  | ⟨0, _⟩ => show win0_2.index t 0 * 5000 ≤ (i 0).val ∧ (i 0).val < win0_2.index t 0 * 5000 + 5000
              rw [e4]; show (i 0).val / 5000 * 5000 ≤ (i 0).val ∧ (i 0).val < (i 0).val / 5000 * 5000 + 5000; omega
  | ⟨1, _⟩ => show win0_2.index t 1 * 128 ≤ (i 1).val ∧ (i 1).val < win0_2.index t 1 * 128 + 128
              rw [e5]; omega

/-- So the region leaves the product of the two arrays it reads in its output array. -/
theorem final0 (c : Dev nD) : (dat0 V c).arrAt 2 cfg0.N = timesRows128 (V c main_arg0) (V c main_arg2) :=
  (dat0 V c).arrAt_eq_of_cover 2 (timesRows128 (V c main_arg0) (V c main_arg2)) (fun t _ => flushed0 V c t) cover0

/-! ## Region 2: the first hidden layer times the second layer's weights -/

/-- Where the printed index maps put the blocks at grid point `t`: the row-tiled windows at block row `t`,
    the resident matrix at its only block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `j` of the left window's block at point `t` is row `5000 t + j` of its array. -/
theorem left2_apply (c : Dev nD) (t : Fin cfg2.N) (j : S5000x128.Idx) (i : S50000x128.Idx)
    (h0 : (i 0).val = 5000 * t.val + (j 0).val) (h1 : (i 1).val = (j 1).val) :
    (iblk2 V c 0 t : Vec Ideal S5000x128 .f32) j = (V c main_v50 : S50000x128.Idx → Elt Ideal .f32) i := by
  obtain ⟨e0, e1, -, -, -, -⟩ := idx2 t
  unfold iblk2
  rw [View.read_apply]
  show V c main_v50 _ = V c main_v50 _
  congr 1
  funext a
  apply Fin.ext
  match a with
  | ⟨0, _⟩ => show win2_0.index t 0 * 5000 + 1 * (j 0).val = (i 0).val; rw [e0, h0]; omega
  | ⟨1, _⟩ => show win2_0.index t 1 * 128 + 1 * (j 1).val = (i 1).val; rw [e1, h1]; omega

/-- The resident matrix's block is the matrix. -/
theorem right2_apply (c : Dev nD) (t : Fin cfg2.N) (j : S128x128.Idx) :
    (iblk2 V c 1 t : Vec Ideal S128x128 .f32) j = (V c main_arg4 : S128x128.Idx → Elt Ideal .f32) j := by
  obtain ⟨-, -, e2, e3, -, -⟩ := idx2 t
  unfold iblk2
  rw [View.read_apply]
  show V c main_arg4 _ = V c main_arg4 _
  congr 1
  funext a
  apply Fin.ext
  match a with
  | ⟨0, _⟩ => show win2_1.index t 0 * 128 + 1 * (j 0).val = (j 0).val; rw [e2]; omega
  | ⟨1, _⟩ => show win2_1.index t 1 * 128 + 1 * (j 1).val = (j 1).val; rw [e3]; omega

/-- What point `t` writes back is block `t` of the product of the two arrays the region reads. -/
theorem flushed2 (c : Dev nD) (t : Fin cfg2.N) :
    (dat2 V c).flushed 2 t = ((cfg2.win 2).blk t).view.read (Elt Ideal) (timesRows128 (V c main_v50) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx2 t
  funext y
  show k2_pay1 (iblk2 V c 0 t) (iblk2 V c 1 t) y
    = timesRows128 (V c main_v50) (V c main_arg4) (((cfg2.win 2).blk t).view.emb y)
  refine (product128_apply _ _ y).trans ?_
  refine Finset.sum_congr rfl fun k _ => ?_
  have hy0 : (y 0).val < 5000 := (y 0).isLt
  refine congrArg₂ (· * ·) ?_ ?_
  · show shapeCast S5000x128 (iblk2 V c 0 t) shapeCasts_S5000x128_S5000x128 (left128 y k) = _
    refine (congrFun (shapeCast_self (iblk2 V c 0 t : Vec Ideal S5000x128 .f32) shapeCasts_S5000x128_S5000x128) (left128 y k)).trans ?_
    refine left2_apply V c t (left128 y k) (rowAt (((cfg2.win 2).blk t).view.emb y) k) ?_ ?_
    · show win2_2.index t 0 * 5000 + 1 * (y 0).val = 5000 * t.val + (y 0).val
      rw [e4]; omega
    · rfl
  · refine (right2_apply V c t (right128 y k)).trans ?_
    refine congrArg (V c main_arg4 : S128x128.Idx → Elt Ideal .f32) ?_
    funext a
    apply Fin.ext
    match a with
    | ⟨0, _⟩ => rfl
    | ⟨1, _⟩ => show (y 1).val = win2_2.index t 1 * 128 + 1 * (y 1).val; rw [e5]; omega

/-- An index of the array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- The ten row blocks cover the array: row `r` is in the block of point `r / 5000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; rw [hN]; omega⟩
  obtain ⟨-, -, -, -, e4, e5⟩ := idx2 t
  refine ⟨t, flush2_2 t, ?_⟩
  rw [mem_blk2]
  intro a
  match a with
  | ⟨0, _⟩ => show win2_2.index t 0 * 5000 ≤ (i 0).val ∧ (i 0).val < win2_2.index t 0 * 5000 + 5000
              rw [e4]; show (i 0).val / 5000 * 5000 ≤ (i 0).val ∧ (i 0).val < (i 0).val / 5000 * 5000 + 5000; omega
  | ⟨1, _⟩ => show win2_2.index t 1 * 128 ≤ (i 1).val ∧ (i 1).val < win2_2.index t 1 * 128 + 128
              rw [e5]; omega

/-- So the region leaves the product of the two arrays it reads in its output array. -/
theorem final2 (c : Dev nD) : (dat2 V c).arrAt 2 cfg2.N = timesRows128 (V c main_v50) (V c main_arg4) :=
  (dat2 V c).arrAt_eq_of_cover 2 (timesRows128 (V c main_v50) (V c main_arg4)) (fun t _ => flushed2 V c t) cover2

/-! ## Region 4: the second hidden layer times the third layer's weights -/

/-- Where the printed index maps put the blocks at grid point `t`: the row-tiled windows at block row `t`,
    the resident matrix at its only block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `j` of the left window's block at point `t` is row `5000 t + j` of its array. -/
theorem left4_apply (c : Dev nD) (t : Fin cfg4.N) (j : S5000x128.Idx) (i : S50000x128.Idx)
    (h0 : (i 0).val = 5000 * t.val + (j 0).val) (h1 : (i 1).val = (j 1).val) :
    (iblk4 V c 0 t : Vec Ideal S5000x128 .f32) j = (V c main_v66 : S50000x128.Idx → Elt Ideal .f32) i := by
  obtain ⟨e0, e1, -, -, -, -⟩ := idx4 t
  unfold iblk4
  rw [View.read_apply]
  show V c main_v66 _ = V c main_v66 _
  congr 1
  funext a
  apply Fin.ext
  match a with
  | ⟨0, _⟩ => show win4_0.index t 0 * 5000 + 1 * (j 0).val = (i 0).val; rw [e0, h0]; omega
  | ⟨1, _⟩ => show win4_0.index t 1 * 128 + 1 * (j 1).val = (i 1).val; rw [e1, h1]; omega

/-- The resident matrix's block is the matrix. -/
theorem right4_apply (c : Dev nD) (t : Fin cfg4.N) (j : S128x64.Idx) :
    (iblk4 V c 1 t : Vec Ideal S128x64 .f32) j = (V c main_arg6 : S128x64.Idx → Elt Ideal .f32) j := by
  obtain ⟨-, -, e2, e3, -, -⟩ := idx4 t
  unfold iblk4
  rw [View.read_apply]
  show V c main_arg6 _ = V c main_arg6 _
  congr 1
  funext a
  apply Fin.ext
  match a with
  | ⟨0, _⟩ => show win4_1.index t 0 * 128 + 1 * (j 0).val = (j 0).val; rw [e2]; omega
  | ⟨1, _⟩ => show win4_1.index t 1 * 64 + 1 * (j 1).val = (j 1).val; rw [e3]; omega

/-- What point `t` writes back is block `t` of the product of the two arrays the region reads. -/
theorem flushed4 (c : Dev nD) (t : Fin cfg4.N) :
    (dat4 V c).flushed 2 t = ((cfg4.win 2).blk t).view.read (Elt Ideal) (timesRows64 (V c main_v66) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  obtain ⟨-, -, -, -, e4, e5⟩ := idx4 t
  funext y
  show k4_pay1 (iblk4 V c 0 t) (iblk4 V c 1 t) y
    = timesRows64 (V c main_v66) (V c main_arg6) (((cfg4.win 2).blk t).view.emb y)
  refine (product64_apply _ _ y).trans ?_
  refine Finset.sum_congr rfl fun k _ => ?_
  have hy0 : (y 0).val < 5000 := (y 0).isLt
  refine congrArg₂ (· * ·) ?_ ?_
  · show shapeCast S5000x128 (iblk4 V c 0 t) shapeCasts_S5000x128_S5000x128 (left64 y k) = _
    refine (congrFun (shapeCast_self (iblk4 V c 0 t : Vec Ideal S5000x128 .f32) shapeCasts_S5000x128_S5000x128) (left64 y k)).trans ?_
    refine left4_apply V c t (left64 y k) (rowAt64 (((cfg4.win 2).blk t).view.emb y) k) ?_ ?_
    · show win4_2.index t 0 * 5000 + 1 * (y 0).val = 5000 * t.val + (y 0).val
      rw [e4]; omega
    · rfl
  · refine (right4_apply V c t (right64 y k)).trans ?_
    refine congrArg (V c main_arg6 : S128x64.Idx → Elt Ideal .f32) ?_
    funext a
    apply Fin.ext
    match a with
    | ⟨0, _⟩ => rfl
    | ⟨1, _⟩ => show (y 1).val = win4_2.index t 1 * 64 + 1 * (y 1).val; rw [e5]; omega

/-- An index of the array is in point `t`'s block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v67).slice (win4_2.rect t)).set ↔ _
  rw [View.set_slice_whole, Rect.mem_set_unit]
  exact Iff.rfl

/-- The ten row blocks cover the array: row `r` is in the block of point `r / 5000`. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : grid4.N = 10 := N_4
  let t : Fin cfg4.N := ⟨(i 0).val / 5000, by show (i 0).val / 5000 < grid4.N; rw [hN]; omega⟩
  obtain ⟨-, -, -, -, e4, e5⟩ := idx4 t
  refine ⟨t, flush4_2 t, ?_⟩
  rw [mem_blk4]
  intro a
  match a with
  | ⟨0, _⟩ => show win4_2.index t 0 * 5000 ≤ (i 0).val ∧ (i 0).val < win4_2.index t 0 * 5000 + 5000
              rw [e4]; show (i 0).val / 5000 * 5000 ≤ (i 0).val ∧ (i 0).val < (i 0).val / 5000 * 5000 + 5000; omega
  | ⟨1, _⟩ => show win4_2.index t 1 * 64 ≤ (i 1).val ∧ (i 1).val < win4_2.index t 1 * 64 + 64
              rw [e5]; omega

/-- So the region leaves the product of the two arrays it reads in its output array. -/
theorem final4 (c : Dev nD) : (dat4 V c).arrAt 2 cfg4.N = timesRows64 (V c main_v66) (V c main_arg6) :=
  (dat4 V c).arrAt_eq_of_cover 2 (timesRows64 (V c main_v66) (V c main_arg6)) (fun t _ => flushed4 V c t) cover4

/-! ## Region 5: the node features times the residual weights -/

/-- Where the printed index maps put the blocks at grid point `t`: the row-tiled windows at block row `t`,
    the resident matrix at its only block. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `j` of the left window's block at point `t` is row `5000 t + j` of its array. -/
theorem left5_apply (c : Dev nD) (t : Fin cfg5.N) (j : S5000x128.Idx) (i : S50000x128.Idx)
    (h0 : (i 0).val = 5000 * t.val + (j 0).val) (h1 : (i 1).val = (j 1).val) :
    (iblk5 V c 0 t : Vec Ideal S5000x128 .f32) j = (V c main_arg0 : S50000x128.Idx → Elt Ideal .f32) i := by
  obtain ⟨e0, e1, -, -, -, -⟩ := idx5 t
  unfold iblk5
  rw [View.read_apply]
  show V c main_arg0 _ = V c main_arg0 _
  congr 1
  funext a
  apply Fin.ext
  match a with
  | ⟨0, _⟩ => show win5_0.index t 0 * 5000 + 1 * (j 0).val = (i 0).val; rw [e0, h0]; omega
  | ⟨1, _⟩ => show win5_0.index t 1 * 128 + 1 * (j 1).val = (i 1).val; rw [e1, h1]; omega

/-- The resident matrix's block is the matrix. -/
theorem right5_apply (c : Dev nD) (t : Fin cfg5.N) (j : S128x64.Idx) :
    (iblk5 V c 1 t : Vec Ideal S128x64 .f32) j = (V c main_arg8 : S128x64.Idx → Elt Ideal .f32) j := by
  obtain ⟨-, -, e2, e3, -, -⟩ := idx5 t
  unfold iblk5
  rw [View.read_apply]
  show V c main_arg8 _ = V c main_arg8 _
  congr 1
  funext a
  apply Fin.ext
  match a with
  | ⟨0, _⟩ => show win5_1.index t 0 * 128 + 1 * (j 0).val = (j 0).val; rw [e2]; omega
  | ⟨1, _⟩ => show win5_1.index t 1 * 64 + 1 * (j 1).val = (j 1).val; rw [e3]; omega

/-- What point `t` writes back is block `t` of the product of the two arrays the region reads. -/
theorem flushed5 (c : Dev nD) (t : Fin cfg5.N) :
    (dat5 V c).flushed 2 t = ((cfg5.win 2).blk t).view.read (Elt Ideal) (timesRows64 (V c main_arg0) (V c main_arg8)) := by
  show (cfg5.win 2).cut (grid5.coords t) ((dat5 V c).after 2 t) = _
  rw [after5_2]
  unfold out5_2
  rw [View.canon_unit_zero hz]
  simp only [View.ld_unit_zero (S := S5000x128) hz, View.ld_unit_zero (S := S128x64) hz]
  obtain ⟨-, -, -, -, e4, e5⟩ := idx5 t
  funext y
  show k5_pay1 (iblk5 V c 0 t) (iblk5 V c 1 t) y
    = timesRows64 (V c main_arg0) (V c main_arg8) (((cfg5.win 2).blk t).view.emb y)
  refine (product64_apply _ _ y).trans ?_
  refine Finset.sum_congr rfl fun k _ => ?_
  have hy0 : (y 0).val < 5000 := (y 0).isLt
  refine congrArg₂ (· * ·) ?_ ?_
  · refine left5_apply V c t (left64 y k) (rowAt64 (((cfg5.win 2).blk t).view.emb y) k) ?_ ?_
    · show win5_2.index t 0 * 5000 + 1 * (y 0).val = 5000 * t.val + (y 0).val
      rw [e4]; omega
    · rfl
  · refine (right5_apply V c t (right64 y k)).trans ?_
    refine congrArg (V c main_arg8 : S128x64.Idx → Elt Ideal .f32) ?_
    funext a
    apply Fin.ext
    match a with
    | ⟨0, _⟩ => rfl
    | ⟨1, _⟩ => show (y 1).val = win5_2.index t 1 * 64 + 1 * (y 1).val; rw [e5]; omega

/-- An index of the array is in point `t`'s block iff each coordinate is in the block's range on its axis. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v81).slice (win5_2.rect t)).set ↔ _
  rw [View.set_slice_whole, Rect.mem_set_unit]
  exact Iff.rfl

/-- The ten row blocks cover the array: row `r` is in the block of point `r / 5000`. -/
theorem cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have hN : grid5.N = 10 := N_5
  let t : Fin cfg5.N := ⟨(i 0).val / 5000, by show (i 0).val / 5000 < grid5.N; rw [hN]; omega⟩
  obtain ⟨-, -, -, -, e4, e5⟩ := idx5 t
  refine ⟨t, flush5_2 t, ?_⟩
  rw [mem_blk5]
  intro a
  match a with
  | ⟨0, _⟩ => show win5_2.index t 0 * 5000 ≤ (i 0).val ∧ (i 0).val < win5_2.index t 0 * 5000 + 5000
              rw [e4]; show (i 0).val / 5000 * 5000 ≤ (i 0).val ∧ (i 0).val < (i 0).val / 5000 * 5000 + 5000; omega
  | ⟨1, _⟩ => show win5_2.index t 1 * 64 ≤ (i 1).val ∧ (i 1).val < win5_2.index t 1 * 64 + 64
              rw [e5]; omega

/-- So the region leaves the product of the two arrays it reads in its output array. -/
theorem final5 (c : Dev nD) : (dat5 V c).arrAt 2 cfg5.N = timesRows64 (V c main_arg0) (V c main_arg8) :=
  (dat5 V c).arrAt_eq_of_cover 2 (timesRows64 (V c main_arg0) (V c main_arg8)) (fun t _ => flushed5 V c t) cover5

end Cert.KernelIdeal.RowsProduct

end
-- ==== Proof.BiasClamp.lean ====
/-
  What an add-bias-and-clamp region leaves in its output array.

  Two regions take a 50000 x 128 array in ten blocks of 5000 rows and a resident row of 128 biases, add the bias
  row to every row of the block and take the maximum with the zero word. Entry (p, q) of a block's result is
  max (block (p, q) + bias (0, q), 0): the identity casts drop out and the row broadcast reads the one row. What point
  `t` writes back is therefore block `t` of the whole array treated the same way, and the ten blocks tile the
  rows. This holds for whatever the core's buffers hold when the region is entered (`V`).
-/
import proofs.«159940_j11510512353283_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasClamp

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias row's entry above the column of `i`. -/
abbrev biasAt (i : S50000x128.Idx) : S1x128.Idx := fun a => match a with
  | ⟨0, _⟩ => ⟨0, Nat.zero_lt_one⟩
  | ⟨1, _⟩ => ⟨(i 1).val, (i 1).isLt⟩

/-- Every row of `A` plus the bias row, clamped below at the zero word. -/
def addRowClamp (A : FVec Ideal S50000x128 .f32) (b : FVec Ideal S1x128 .f32) : FVec Ideal S50000x128 .f32 :=
  fun i => max (A i + b (biasAt i)) (Ideal.ofBits .f32 0x00000000#32)

/-! ## Region 1: the first layer's aggregated messages plus its bias, clamped -/

/-- The body's arithmetic at entry (p, q) of a block. -/
theorem block1_apply (x : FVec Ideal S5000x128 .f32) (b : FVec Ideal S1x128 .f32) (p : Fin 5000) (q : Fin 128) :
    k1_pay1 (F := Ideal) x b (ix2 p q) = max (x (ix2 p q) + b (ix2 (0 : Fin 1) q)) (Ideal.ofBits .f32 0x00000000#32) := by
  show max (shapeCast S5000x128 x shapeCasts_S5000x128_S5000x128 (ix2 p q)
      + broadcastTo S5000x128 (shapeCast S1x128 b shapeCasts_S1x128_S1x128) broadcasts_S1x128_S5000x128 (ix2 p q)) _ = _
  refine congrArg₂ max (congrArg₂ (· + ·) ?_ ?_) rfl
  · exact congrFun (shapeCast_self x _) _
  · exact (broadcastTo_1b_ab_apply _ _ p q).trans (congrFun (shapeCast_self b _) _)

/-- The same at any entry of a block, the bias entry named by the entry's column. -/
theorem block1_apply' (x : FVec Ideal S5000x128 .f32) (b : FVec Ideal S1x128 .f32) (y : S5000x128.Idx) (r : S1x128.Idx)
    (hr : r = ix2 (0 : Fin 1) (y 1)) :
    k1_pay1 (F := Ideal) x b y = max (x y + b r) (Ideal.ofBits .f32 0x00000000#32) := by
  obtain ⟨p, q, rfl⟩ : ∃ (p : Fin 5000) (q : Fin 128), y = ix2 p q := ⟨y 0, y 1, eq_ix2 y⟩
  subst hr
  exact block1_apply x b p q

/-- Where the printed index maps put the blocks at grid point `t`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `j` of the row-tiled window's block at point `t` is row `5000 t + j` of its array. -/
theorem rows1_apply (c : Dev nD) (t : Fin cfg1.N) (j : S5000x128.Idx) (i : S50000x128.Idx)
    (h0 : (i 0).val = 5000 * t.val + (j 0).val) (h1 : (i 1).val = (j 1).val) :
    (iblk1 V c 0 t : Vec Ideal S5000x128 .f32) j = (V c main_v48 : S50000x128.Idx → Elt Ideal .f32) i := by
  obtain ⟨e0, e1, -, -, -, -⟩ := idx1 t
  unfold iblk1
  rw [View.read_apply]
  show V c main_v48 _ = V c main_v48 _
  congr 1
  funext a
  apply Fin.ext
  match a with
  | ⟨0, _⟩ => show win1_0.index t 0 * 5000 + 1 * (j 0).val = (i 0).val; rw [e0, h0]; omega
  | ⟨1, _⟩ => show win1_0.index t 1 * 128 + 1 * (j 1).val = (i 1).val; rw [e1, h1]; omega

/-- The bias row's block is the bias row. -/
theorem bias1_apply (c : Dev nD) (t : Fin cfg1.N) (j : S1x128.Idx) :
    (iblk1 V c 1 t : Vec Ideal S1x128 .f32) j = (V c main_v49 : S1x128.Idx → Elt Ideal .f32) j := by
  obtain ⟨-, -, e2, e3, -, -⟩ := idx1 t
  unfold iblk1
  rw [View.read_apply]
  show V c main_v49 _ = V c main_v49 _
  congr 1
  funext a
  apply Fin.ext
  match a with
  | ⟨0, _⟩ => show win1_1.index t 0 * 1 + 1 * (j 0).val = (j 0).val; rw [e2]; omega
  | ⟨1, _⟩ => show win1_1.index t 1 * 128 + 1 * (j 1).val = (j 1).val; rw [e3]; omega

/-- What point `t` writes back is block `t` of the biased, clamped array. -/
theorem flushed1 (c : Dev nD) (t : Fin cfg1.N) :
    (dat1 V c).flushed 2 t = ((cfg1.win 2).blk t).view.read (Elt Ideal) (addRowClamp (V c main_v48) (V c main_v49)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx1 t
  funext y
  show k1_pay1 (iblk1 V c 0 t) (iblk1 V c 1 t) y
    = addRowClamp (V c main_v48) (V c main_v49) (((cfg1.win 2).blk t).view.emb y)
  have hy0 : (y 0).val < 5000 := (y 0).isLt
  refine (block1_apply' _ _ y (biasAt (((cfg1.win 2).blk t).view.emb y)) ?_).trans ?_
  · funext a
    apply Fin.ext
    match a with
    | ⟨0, _⟩ => rfl
    | ⟨1, _⟩ => show win1_2.index t 1 * 128 + 1 * (y 1).val = (y 1).val; rw [e5]; omega
  · refine congrArg₂ max (congrArg₂ (· + ·) ?_ ?_) rfl
    · refine rows1_apply V c t y _ ?_ ?_
      · show win1_2.index t 0 * 5000 + 1 * (y 0).val = 5000 * t.val + (y 0).val
        rw [e4]; omega
      · show win1_2.index t 1 * 128 + 1 * (y 1).val = (y 1).val
        rw [e5]; omega
    · exact bias1_apply V c t _

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- The ten row blocks cover the array: row `r` is in the block of point `r / 5000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; rw [hN]; omega⟩
  obtain ⟨-, -, -, -, e4, e5⟩ := idx1 t
  refine ⟨t, flush1_2 t, ?_⟩
  rw [mem_blk1]
  intro a
  match a with
  | ⟨0, _⟩ => show win1_2.index t 0 * 5000 ≤ (i 0).val ∧ (i 0).val < win1_2.index t 0 * 5000 + 5000
              rw [e4]; show (i 0).val / 5000 * 5000 ≤ (i 0).val ∧ (i 0).val < (i 0).val / 5000 * 5000 + 5000; omega
  | ⟨1, _⟩ => show win1_2.index t 1 * 128 ≤ (i 1).val ∧ (i 1).val < win1_2.index t 1 * 128 + 128
              rw [e5]; omega

/-- So the region leaves in its output array the array it reads, biased row by row and clamped. -/
theorem final1 (c : Dev nD) : (dat1 V c).arrAt 2 cfg1.N = addRowClamp (V c main_v48) (V c main_v49) :=
  (dat1 V c).arrAt_eq_of_cover 2 (addRowClamp (V c main_v48) (V c main_v49)) (fun t _ => flushed1 V c t) cover1

/-! ## Region 3: the second layer's aggregated messages plus its bias, clamped -/

/-- The body's arithmetic at entry (p, q) of a block. -/
theorem block3_apply (x : FVec Ideal S5000x128 .f32) (b : FVec Ideal S1x128 .f32) (p : Fin 5000) (q : Fin 128) :
    k3_pay1 (F := Ideal) x b (ix2 p q) = max (x (ix2 p q) + b (ix2 (0 : Fin 1) q)) (Ideal.ofBits .f32 0x00000000#32) := by
  show max (shapeCast S5000x128 x shapeCasts_S5000x128_S5000x128 (ix2 p q)
      + broadcastTo S5000x128 (shapeCast S1x128 b shapeCasts_S1x128_S1x128) broadcasts_S1x128_S5000x128 (ix2 p q)) _ = _
  refine congrArg₂ max (congrArg₂ (· + ·) ?_ ?_) rfl
  · exact congrFun (shapeCast_self x _) _
  · exact (broadcastTo_1b_ab_apply _ _ p q).trans (congrFun (shapeCast_self b _) _)

/-- The same at any entry of a block, the bias entry named by the entry's column. -/
theorem block3_apply' (x : FVec Ideal S5000x128 .f32) (b : FVec Ideal S1x128 .f32) (y : S5000x128.Idx) (r : S1x128.Idx)
    (hr : r = ix2 (0 : Fin 1) (y 1)) :
    k3_pay1 (F := Ideal) x b y = max (x y + b r) (Ideal.ofBits .f32 0x00000000#32) := by
  obtain ⟨p, q, rfl⟩ : ∃ (p : Fin 5000) (q : Fin 128), y = ix2 p q := ⟨y 0, y 1, eq_ix2 y⟩
  subst hr
  exact block3_apply x b p q

/-- Where the printed index maps put the blocks at grid point `t`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `j` of the row-tiled window's block at point `t` is row `5000 t + j` of its array. -/
theorem rows3_apply (c : Dev nD) (t : Fin cfg3.N) (j : S5000x128.Idx) (i : S50000x128.Idx)
    (h0 : (i 0).val = 5000 * t.val + (j 0).val) (h1 : (i 1).val = (j 1).val) :
    (iblk3 V c 0 t : Vec Ideal S5000x128 .f32) j = (V c main_v64 : S50000x128.Idx → Elt Ideal .f32) i := by
  obtain ⟨e0, e1, -, -, -, -⟩ := idx3 t
  unfold iblk3
  rw [View.read_apply]
  show V c main_v64 _ = V c main_v64 _
  congr 1
  funext a
  apply Fin.ext
  match a with
  | ⟨0, _⟩ => show win3_0.index t 0 * 5000 + 1 * (j 0).val = (i 0).val; rw [e0, h0]; omega
  | ⟨1, _⟩ => show win3_0.index t 1 * 128 + 1 * (j 1).val = (i 1).val; rw [e1, h1]; omega

/-- The bias row's block is the bias row. -/
theorem bias3_apply (c : Dev nD) (t : Fin cfg3.N) (j : S1x128.Idx) :
    (iblk3 V c 1 t : Vec Ideal S1x128 .f32) j = (V c main_v65 : S1x128.Idx → Elt Ideal .f32) j := by
  obtain ⟨-, -, e2, e3, -, -⟩ := idx3 t
  unfold iblk3
  rw [View.read_apply]
  show V c main_v65 _ = V c main_v65 _
  congr 1
  funext a
  apply Fin.ext
  match a with
  | ⟨0, _⟩ => show win3_1.index t 0 * 1 + 1 * (j 0).val = (j 0).val; rw [e2]; omega
  | ⟨1, _⟩ => show win3_1.index t 1 * 128 + 1 * (j 1).val = (j 1).val; rw [e3]; omega

/-- What point `t` writes back is block `t` of the biased, clamped array. -/
theorem flushed3 (c : Dev nD) (t : Fin cfg3.N) :
    (dat3 V c).flushed 2 t = ((cfg3.win 2).blk t).view.read (Elt Ideal) (addRowClamp (V c main_v64) (V c main_v65)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e4, e5⟩ := idx3 t
  funext y
  show k3_pay1 (iblk3 V c 0 t) (iblk3 V c 1 t) y
    = addRowClamp (V c main_v64) (V c main_v65) (((cfg3.win 2).blk t).view.emb y)
  have hy0 : (y 0).val < 5000 := (y 0).isLt
  refine (block3_apply' _ _ y (biasAt (((cfg3.win 2).blk t).view.emb y)) ?_).trans ?_
  · funext a
    apply Fin.ext
    match a with
    | ⟨0, _⟩ => rfl
    | ⟨1, _⟩ => show win3_2.index t 1 * 128 + 1 * (y 1).val = (y 1).val; rw [e5]; omega
  · refine congrArg₂ max (congrArg₂ (· + ·) ?_ ?_) rfl
    · refine rows3_apply V c t y _ ?_ ?_
      · show win3_2.index t 0 * 5000 + 1 * (y 0).val = 5000 * t.val + (y 0).val
        rw [e4]; omega
      · show win3_2.index t 1 * 128 + 1 * (y 1).val = (y 1).val
        rw [e5]; omega
    · exact bias3_apply V c t _

/-- An index of the array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v66).slice (win3_2.rect t)).set ↔ _
  rw [View.set_slice_whole, Rect.mem_set_unit]
  exact Iff.rfl

/-- The ten row blocks cover the array: row `r` is in the block of point `r / 5000`. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; rw [hN]; omega⟩
  obtain ⟨-, -, -, -, e4, e5⟩ := idx3 t
  refine ⟨t, flush3_2 t, ?_⟩
  rw [mem_blk3]
  intro a
  match a with
  | ⟨0, _⟩ => show win3_2.index t 0 * 5000 ≤ (i 0).val ∧ (i 0).val < win3_2.index t 0 * 5000 + 5000
              rw [e4]; show (i 0).val / 5000 * 5000 ≤ (i 0).val ∧ (i 0).val < (i 0).val / 5000 * 5000 + 5000; omega
  | ⟨1, _⟩ => show win3_2.index t 1 * 128 ≤ (i 1).val ∧ (i 1).val < win3_2.index t 1 * 128 + 128
              rw [e5]; omega

/-- So the region leaves in its output array the array it reads, biased row by row and clamped. -/
theorem final3 (c : Dev nD) : (dat3 V c).arrAt 2 cfg3.N = addRowClamp (V c main_v64) (V c main_v65) :=
  (dat3 V c).arrAt_eq_of_cover 2 (addRowClamp (V c main_v64) (V c main_v65)) (fun t _ => flushed3 V c t) cover3

end Cert.KernelIdeal.BiasClamp

end
-- ==== Proof.Combine.lean ====
/-
  What the last region leaves in the result array.

  The last region takes two 50000 x 64 arrays in ten blocks of 5000 rows, each with a resident row of 64 biases, and
  writes (first + its bias row) + (second + its bias row), in that grouping. Entry (p, q) of a block's result is
  (a (p, q) + ba (0, q)) + (r (p, q) + br (0, q)); what point `t` writes back is block `t` of the whole arrays
  combined the same way, and the ten blocks tile the rows. This holds for whatever the core's buffers hold when the
  region is entered (`V`).
-/
import proofs.«159940_j11510512353283_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A bias row's entry above the column of `i`. -/
abbrev biasAt (i : S50000x64.Idx) : S1x64.Idx := fun a => match a with
  | ⟨0, _⟩ => ⟨0, Nat.zero_lt_one⟩
  | ⟨1, _⟩ => ⟨(i 1).val, (i 1).isLt⟩

/-- (`A` plus its bias row) plus (`R` plus its bias row), row by row. -/
def addBoth (A : FVec Ideal S50000x64 .f32) (ba : FVec Ideal S1x64 .f32) (R : FVec Ideal S50000x64 .f32) (br : FVec Ideal S1x64 .f32) :
    FVec Ideal S50000x64 .f32 :=
  fun i => (A i + ba (biasAt i)) + (R i + br (biasAt i))

/-- The body's arithmetic at entry (p, q) of a block. -/
theorem block_apply (x : FVec Ideal S5000x64 .f32) (b : FVec Ideal S1x64 .f32) (z : FVec Ideal S5000x64 .f32) (d : FVec Ideal S1x64 .f32)
    (p : Fin 5000) (q : Fin 64) :
    k6_pay1 (F := Ideal) x b z d (ix2 p q) = (x (ix2 p q) + b (ix2 (0 : Fin 1) q)) + (z (ix2 p q) + d (ix2 (0 : Fin 1) q)) := by
  show (shapeCast S5000x64 x shapeCasts_S5000x64_S5000x64 (ix2 p q)
      + broadcastTo S5000x64 (shapeCast S1x64 b shapeCasts_S1x64_S1x64) broadcasts_S1x64_S5000x64 (ix2 p q))
    + (shapeCast S5000x64 z shapeCasts_S5000x64_S5000x64 (ix2 p q)
      + broadcastTo S5000x64 (shapeCast S1x64 d shapeCasts_S1x64_S1x64) broadcasts_S1x64_S5000x64 (ix2 p q)) = _
  refine congrArg₂ (· + ·) (congrArg₂ (· + ·) ?_ ?_) (congrArg₂ (· + ·) ?_ ?_)
  · exact congrFun (shapeCast_self x _) _
  · exact (broadcastTo_1b_ab_apply _ _ p q).trans (congrFun (shapeCast_self b _) _)
  · exact congrFun (shapeCast_self z _) _
  · exact (broadcastTo_1b_ab_apply _ _ p q).trans (congrFun (shapeCast_self d _) _)

/-- The same at any entry of a block, the bias entries named by the entry's column. -/
theorem block_apply' (x : FVec Ideal S5000x64 .f32) (b : FVec Ideal S1x64 .f32) (z : FVec Ideal S5000x64 .f32) (d : FVec Ideal S1x64 .f32)
    (y : S5000x64.Idx) (r : S1x64.Idx) (hr : r = ix2 (0 : Fin 1) (y 1)) :
    k6_pay1 (F := Ideal) x b z d y = (x y + b r) + (z y + d r) := by
  obtain ⟨p, q, rfl⟩ : ∃ (p : Fin 5000) (q : Fin 64), y = ix2 p q := ⟨y 0, y 1, eq_ix2 y⟩
  subst hr
  exact block_apply x b z d p q

/-- Where the printed index maps put the blocks at grid point `t`: the row-tiled windows at block row `t`,
    the bias rows at their only block. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row `j` of window 0's block at point `t` is row `5000 t + j` of its array. -/
theorem rows0_apply (c : Dev nD) (t : Fin cfg6.N) (j : S5000x64.Idx) (i : S50000x64.Idx)
    (h0 : (i 0).val = 5000 * t.val + (j 0).val) (h1 : (i 1).val = (j 1).val) :
    (iblk6 V c 0 t : Vec Ideal S5000x64 .f32) j = (V c main_v80 : S50000x64.Idx → Elt Ideal .f32) i := by
  have e := idx6 t
  have e0 : win6_0.index t 0 = t.val := e.1
  have e1 : win6_0.index t 1 = 0 := e.2.1
  unfold iblk6
  rw [View.read_apply]
  show V c main_v80 _ = V c main_v80 _
  congr 1
  funext a
  apply Fin.ext
  match a with
  | ⟨0, _⟩ => show win6_0.index t 0 * 5000 + 1 * (j 0).val = (i 0).val; rw [e0, h0]; omega
  | ⟨1, _⟩ => show win6_0.index t 1 * 64 + 1 * (j 1).val = (i 1).val; rw [e1, h1]; omega

/-- The bias row of window 1 is its block. -/
theorem bias1_apply (c : Dev nD) (t : Fin cfg6.N) (j : S1x64.Idx) :
    (iblk6 V c 1 t : Vec Ideal S1x64 .f32) j = (V c main_v82 : S1x64.Idx → Elt Ideal .f32) j := by
  have e := idx6 t
  have e0 : win6_1.index t 0 = 0 := e.2.2.1
  have e1 : win6_1.index t 1 = 0 := e.2.2.2.1
  unfold iblk6
  rw [View.read_apply]
  show V c main_v82 _ = V c main_v82 _
  congr 1
  funext a
  apply Fin.ext
  match a with
  | ⟨0, _⟩ => show win6_1.index t 0 * 1 + 1 * (j 0).val = (j 0).val; rw [e0]; omega
  | ⟨1, _⟩ => show win6_1.index t 1 * 64 + 1 * (j 1).val = (j 1).val; rw [e1]; omega

/-- Row `j` of window 2's block at point `t` is row `5000 t + j` of its array. -/
theorem rows2_apply (c : Dev nD) (t : Fin cfg6.N) (j : S5000x64.Idx) (i : S50000x64.Idx)
    (h0 : (i 0).val = 5000 * t.val + (j 0).val) (h1 : (i 1).val = (j 1).val) :
    (iblk6 V c 2 t : Vec Ideal S5000x64 .f32) j = (V c main_v81 : S50000x64.Idx → Elt Ideal .f32) i := by
  have e := idx6 t
  have e0 : win6_2.index t 0 = t.val := e.2.2.2.2.1
  have e1 : win6_2.index t 1 = 0 := e.2.2.2.2.2.1
  unfold iblk6
  rw [View.read_apply]
  show V c main_v81 _ = V c main_v81 _
  congr 1
  funext a
  apply Fin.ext
  match a with
  | ⟨0, _⟩ => show win6_2.index t 0 * 5000 + 1 * (j 0).val = (i 0).val; rw [e0, h0]; omega
  | ⟨1, _⟩ => show win6_2.index t 1 * 64 + 1 * (j 1).val = (i 1).val; rw [e1, h1]; omega

/-- The bias row of window 3 is its block. -/
theorem bias3_apply (c : Dev nD) (t : Fin cfg6.N) (j : S1x64.Idx) :
    (iblk6 V c 3 t : Vec Ideal S1x64 .f32) j = (V c main_v83 : S1x64.Idx → Elt Ideal .f32) j := by
  have e := idx6 t
  have e0 : win6_3.index t 0 = 0 := e.2.2.2.2.2.2.1
  have e1 : win6_3.index t 1 = 0 := e.2.2.2.2.2.2.2.1
  unfold iblk6
  rw [View.read_apply]
  show V c main_v83 _ = V c main_v83 _
  congr 1
  funext a
  apply Fin.ext
  match a with
  | ⟨0, _⟩ => show win6_3.index t 0 * 1 + 1 * (j 0).val = (j 0).val; rw [e0]; omega
  | ⟨1, _⟩ => show win6_3.index t 1 * 64 + 1 * (j 1).val = (j 1).val; rw [e1]; omega

/-- What point `t` writes back is block `t` of the two arrays combined. -/
theorem flushed6 (c : Dev nD) (t : Fin cfg6.N) :
    (dat6 V c).flushed 4 t = ((cfg6.win 4).blk t).view.read (Elt Ideal) (addBoth (V c main_v80) (V c main_v82) (V c main_v81) (V c main_v83)) := by
  show (cfg6.win 4).cut (grid6.coords t) ((dat6 V c).after 4 t) = _
  rw [after6_4]
  unfold out6_4
  rw [View.canon_unit_zero hz]
  simp only [View.ld_unit_zero (S := S5000x64) hz, View.ld_unit_zero (S := S1x64) hz]
  have e := idx6 t
  have e4 : win6_4.index t 0 = t.val := e.2.2.2.2.2.2.2.2.1
  have e5 : win6_4.index t 1 = 0 := e.2.2.2.2.2.2.2.2.2
  funext y
  show k6_pay1 (iblk6 V c 0 t) (iblk6 V c 1 t) (iblk6 V c 2 t) (iblk6 V c 3 t) y
    = addBoth (V c main_v80) (V c main_v82) (V c main_v81) (V c main_v83) (((cfg6.win 4).blk t).view.emb y)
  have hy0 : (y 0).val < 5000 := (y 0).isLt
  have hrow : ∀ i : S50000x64.Idx, i = ((cfg6.win 4).blk t).view.emb y →
      (i 0).val = 5000 * t.val + (y 0).val ∧ (i 1).val = (y 1).val := by
    intro i hi; subst hi
    refine ⟨?_, ?_⟩
    · show win6_4.index t 0 * 5000 + 1 * (y 0).val = 5000 * t.val + (y 0).val
      rw [e4]; omega
    · show win6_4.index t 1 * 64 + 1 * (y 1).val = (y 1).val
      rw [e5]; omega
  obtain ⟨hr0, hr1⟩ := hrow _ rfl
  refine (block_apply' _ _ _ _ y (biasAt (((cfg6.win 4).blk t).view.emb y)) ?_).trans ?_
  · funext a
    apply Fin.ext
    match a with
    | ⟨0, _⟩ => rfl
    | ⟨1, _⟩ => exact hr1
  · refine congrArg₂ (· + ·) (congrArg₂ (· + ·) ?_ ?_) (congrArg₂ (· + ·) ?_ ?_)
    · exact rows0_apply V c t y _ hr0 hr1
    · exact bias1_apply V c t _
    · exact rows2_apply V c t y _ hr0 hr1
    · exact bias3_apply V c t _

/-- An index of the array is in point `t`'s block iff each coordinate is in the block's range on its axis. -/
theorem mem_blk6 (t : Fin cfg6.N) (i : S50000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v84).slice (win6_4.rect t)).set ↔ _
  rw [View.set_slice_whole, Rect.mem_set_unit]
  exact Iff.rfl

/-- The ten row blocks cover the array: row `r` is in the block of point `r / 5000`. -/
theorem cover6 (i : S50000x64.Idx) : ∃ t : Fin cfg6.N, (cfg6.win 4).flush t = true ∧ i ∈ ((cfg6.win 4).blk t).view.set := by
  have hi0 : (i 0).val < 50000 := (i 0).isLt
  have hi1 : (i 1).val < 64 := (i 1).isLt
  have hN : grid6.N = 10 := N_6
  let t : Fin cfg6.N := ⟨(i 0).val / 5000, by show (i 0).val / 5000 < grid6.N; rw [hN]; omega⟩
  have e := idx6 t
  have e4 : win6_4.index t 0 = t.val := e.2.2.2.2.2.2.2.2.1
  have e5 : win6_4.index t 1 = 0 := e.2.2.2.2.2.2.2.2.2
  refine ⟨t, flush6_4 t, ?_⟩
  rw [mem_blk6]
  intro a
  match a with
  | ⟨0, _⟩ => show win6_4.index t 0 * 5000 ≤ (i 0).val ∧ (i 0).val < win6_4.index t 0 * 5000 + 5000
              rw [e4]; show (i 0).val / 5000 * 5000 ≤ (i 0).val ∧ (i 0).val < (i 0).val / 5000 * 5000 + 5000; omega
  | ⟨1, _⟩ => show win6_4.index t 1 * 64 ≤ (i 1).val ∧ (i 1).val < win6_4.index t 1 * 64 + 64
              rw [e5]; omega

/-- So the region leaves the two arrays, each with its bias row added, summed in the result array. -/
theorem final6 (c : Dev nD) :
    (dat6 V c).arrAt 4 cfg6.N = addBoth (V c main_v80) (V c main_v82) (V c main_v81) (V c main_v83) :=
  (dat6 V c).arrAt_eq_of_cover 4 (addBoth (V c main_v80) (V c main_v82) (V c main_v81) (V c main_v83)) (fun t _ => flushed6 V c t) cover6

end Cert.KernelIdeal.Combine

end
-- ==== Proof.Meets.lean ====
/-
  The functions the kernel's regions compute are the reference's stages.

  The reference computes each dense step as one host operation on whole arrays: a `dot_general` for the products,
  two broadcasts, an addition and a maximum with a splatted zero for a bias-and-clamp, two broadcasts and three
  additions for the final sum. Read at an entry these are the same expressions as the kernel regions' whole-array
  functions: the same sum over the shared axis of 128; the bias entry above the entry's column, reached on the
  kernel's side through a reshape of the bias vector to one row and on the reference's side through its two
  broadcasts; the same zero word; the same grouping of the final sum.
-/
import proofs.«159940_j11510512353283_1_alg».proof.Proof.RowsProduct
import proofs.«159940_j11510512353283_1_alg».proof.Proof.BiasClamp
import proofs.«159940_j11510512353283_1_alg».proof.Proof.Combine
import proofs.«159940_j11510512353283_1_alg».proof.Proof.RefReadPatched

set_option maxRecDepth 16384

noncomputable section

open Idealize.ShloMosaic Idealize.ShloMosaic.TcCoe Idealize.SL.Sem Idealize.ShloMosaic.ValueIdx

namespace Cert.KernelIdeal.Meets

open Cert.KernelIdeal Cert.KernelIdeal.Gen Cert.KernelIdeal.RowsProduct Cert.KernelIdeal.BiasClamp Cert.KernelIdeal.Combine
open Cert.ReferenceIdeal.ReadP

/-- The 50000 x 128 by 128 x 128 product is the host's `dot_general` of the two arrays. -/
theorem timesRows128_meets (X : FVec Ideal S50000x128 .f32) (W : FVec Ideal S128x128 .f32) :
    timesRows128 X W = val_main_v35 (F := Ideal) X W := by
  funext i
  rw [val_main_v35_apply]
  rfl

/-- The 50000 x 128 by 128 x 64 product is the host's `dot_general` of the two arrays. -/
theorem timesRows64_meets (X : FVec Ideal S50000x128 .f32) (W : FVec Ideal S128x64 .f32) :
    timesRows64 X W = val_main_v88 (F := Ideal) X W := by
  funext i
  rw [val_main_v88_apply]
  rfl

/-- The one-row reshape of a bias vector, read above the column of `i`, is the vector's entry at that column. -/
theorem biasRow128_apply (b : FVec Ideal S128 .f32) (i : S50000x128.Idx) :
    shapeCast S1x128 b shapeCasts_S128_S1x128 (BiasClamp.biasAt i) = b (ix1 (⟨(i 1).val, (i 1).isLt⟩ : Fin 128)) := by
  have h : BiasClamp.biasAt i = ix2 (0 : Fin 1) (⟨(i 1).val, (i 1).isLt⟩ : Fin 128) := funext fun a => by
    match a with
    | ⟨0, _⟩ => rfl
    | ⟨1, _⟩ => rfl
  rw [h]
  exact shapeCast_a_1a_apply b _ 0 _

/-- The same for the 64 biases of the last region. -/
theorem biasRow64_apply (b : FVec Ideal S64 .f32) (i : S50000x64.Idx) :
    shapeCast S1x64 b shapeCasts_S64_S1x64 (Combine.biasAt i) = b (ix1 (⟨(i 1).val, (i 1).isLt⟩ : Fin 64)) := by
  have h : Combine.biasAt i = ix2 (0 : Fin 1) (⟨(i 1).val, (i 1).isLt⟩ : Fin 64) := funext fun a => by
    match a with
    | ⟨0, _⟩ => rfl
    | ⟨1, _⟩ => rfl
  rw [h]
  exact shapeCast_a_1a_apply b _ 0 _

/-- Bias and clamp over the reshaped bias vector is the reference's add of the twice-broadcast vector followed by the
    maximum with its splatted zero. -/
theorem addRowClamp_meets (A : FVec Ideal S50000x128 .f32) (b : FVec Ideal S128 .f32) :
    addRowClamp A (shapeCast S1x128 b shapeCasts_S128_S1x128)
      = maximumf (addf A (val_main_v50 (F := Ideal) b)) (val_main_call1_v0 (F := Ideal)) := by
  funext i
  show max (A i + shapeCast S1x128 b shapeCasts_S128_S1x128 (BiasClamp.biasAt i)) (Ideal.ofBits .f32 0x00000000#32)
    = max (A i + val_main_v50 (F := Ideal) b i) (val_main_call1_v0 (F := Ideal) i)
  rw [val_main_v50_apply, val_main_v49_apply, val_main_call1_v0_apply, biasRow128_apply]
  refine congrArg₂ max (congrArg (A i + ·) (congrArg b (funext fun a => ?_))) rfl
  match a with
  | ⟨0, _⟩ => rfl

/-- The last region's sum over the two reshaped bias vectors is the reference's three additions over its broadcasts. -/
theorem addBoth_meets (A R : FVec Ideal S50000x64 .f32) (ba br : FVec Ideal S64 .f32) :
    addBoth A (shapeCast S1x64 ba shapeCasts_S64_S1x64) R (shapeCast S1x64 br shapeCasts_S64_S1x64)
      = addf (addf A (val_main_v86 (F := Ideal) ba)) (addf R (val_main_v90 (F := Ideal) br)) := by
  funext i
  show (A i + shapeCast S1x64 ba shapeCasts_S64_S1x64 (Combine.biasAt i)) + (R i + shapeCast S1x64 br shapeCasts_S64_S1x64 (Combine.biasAt i))
    = (A i + val_main_v86 (F := Ideal) ba i) + (R i + val_main_v90 (F := Ideal) br i)
  rw [val_main_v86_apply, val_main_v85_apply, val_main_v90_apply, val_main_v89_apply, biasRow64_apply, biasRow64_apply]
  refine congrArg₂ (· + ·) (congrArg (A i + ·) (congrArg ba (funext fun a => ?_))) (congrArg (R i + ·) (congrArg br (funext fun a => ?_)))
  · match a with
    | ⟨0, _⟩ => rfl
  · match a with
    | ⟨0, _⟩ => rfl

end Cert.KernelIdeal.Meets

end
-- ==== Proof.Layer1.lean ====
/-
  The first layer, read off the kernel's program.

  Region 0 leaves the node features times the first weights (the reference's first `dot_general`); the stretch after it
  gathers that product's rows at the edges' sources, scales them by the edge weights and scatter-adds them at the
  targets, and reshapes the first bias to one row; region 1 adds the bias row and clamps at zero. Each buffer holds
  the reference's stage of the arguments: the gather-scale-scatter chain is the reference's own operations applied to
  buffers already identified with the reference's stages.
-/
import proofs.«159940_j11510512353283_1_alg».proof.Proof.GraphNorm
import proofs.«159940_j11510512353283_1_alg».proof.Proof.Meets

set_option maxRecDepth 16384

noncomputable section

open Idealize.ShloMosaic Idealize.ShloMosaic.TcCoe Idealize.SL.Sem Idealize.ShloMosaic.StableHlo
open Idealize.ShloMosaic.Pipeline (Dat)

namespace Cert.KernelIdeal.Boundary

open Cert.KernelIdeal Cert.KernelIdeal.Gen Cert.ReferenceIdeal.ReadP Cert.KernelIdeal.RowsProduct Cert.KernelIdeal.BiasClamp

variable (m : (ℓ : Loc nD τ sig) → Buf (Elt Ideal) ℓ) (ρ : Dev nD → PrngReg)

/-- The node features are as launched when region 0 is entered. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c : Thread nD τ).loc main_arg0) := rfl
/-- The first weights are as launched when region 0 is entered. -/
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = m ((c : Thread nD τ).loc main_arg2) := rfl
/-- After region 0: the node features times the first weights. -/
theorem product1_at4 (c : Dev nD) : W4 m ρ c (Proc.devRef .tc main_v35) = val_main_v35 (F := Ideal) (m ((c : Thread nD τ).loc main_arg0)) (m ((c : Thread nD τ).loc main_arg2)) :=
  (W4_arr m ρ c 2).trans ((final0 (V3 m ρ) c).trans
    ((congrArg₂ timesRows128 (arg0_at3 m ρ c) (arg2_at3 m ρ c)).trans (Meets.timesRows128_meets _ _)))
/-- The first bias is as launched where it is reshaped. -/
theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c : Thread nD τ).loc main_arg3) := rfl
set_option maxHeartbeats 4000000 in
/-- The first layer's messages, gathered at the sources, weighted and summed at the targets. -/
theorem messages1_at5 (c : Dev nD) : W5 m ρ c (Proc.devRef .tc main_v48) = val_main_v48 (F := Ideal) (m ((c : Thread nD τ).loc main_arg0)) (m ((c : Thread nD τ).loc main_arg1)) (m ((c : Thread nD τ).loc main_arg2)) := by
  have h0 := product1_at4 m ρ c
  have h1 := sources_at4 m ρ c
  have h2 := targets_at4 m ρ c
  have h3 := weights_at4 m ρ c
  show StableHlo.after hostOps1 (W4 m ρ c) (Proc.devRef .tc main_v48) = _
  generalize W4 m ρ c = U at h0 h1 h2 h3 ⊢
  after_results
  rw [h0, h1, h2, h3]
  simp only [val_main_c_8, val_main_v36, val_main_v37, val_main_c_9, val_main_v38, val_main_v39, val_main_v40, val_main_v41, val_main_v42, val_main_v43, val_main_v44, val_main_v45, val_main_cst_10, val_main_v46, val_main_v47, val_main_v48] <;> rfl
set_option maxHeartbeats 4000000 in
/-- The first bias as one row. -/
theorem biasRow1_at5 (c : Dev nD) : W5 m ρ c (Proc.devRef .tc main_v49) = (shapeCast S1x128 (m ((c : Thread nD τ).loc main_arg3) : FVec Ideal S128 .f32) shapeCasts_S128_S1x128 : FVec Ideal S1x128 .f32) := by
  have h0 := arg3_at4 m ρ c
  show StableHlo.after hostOps1 (W4 m ρ c) (Proc.devRef .tc main_v49) = _
  generalize W4 m ρ c = U at h0 ⊢
  after_results
  rw [h0]
  rfl
/-- After region 1: the first hidden layer. -/
theorem hidden1_at6 (c : Dev nD) : W6 m ρ c (Proc.devRef .tc main_v50) = val_main_v52 (F := Ideal) (m ((c : Thread nD τ).loc main_arg0)) (m ((c : Thread nD τ).loc main_arg1)) (m ((c : Thread nD τ).loc main_arg2)) (m ((c : Thread nD τ).loc main_arg3)) :=
  (W6_arr m ρ c 2).trans ((final1 (V5 m ρ) c).trans
    ((congrArg₂ addRowClamp (messages1_at5 m ρ c) (biasRow1_at5 m ρ c)).trans ((Meets.addRowClamp_meets _ _).trans rfl)))

end Cert.KernelIdeal.Boundary

end
-- ==== Proof.Layer2.lean ====
/-
  The second layer, read off the kernel's program: region 2 multiplies the first hidden layer by the second weights,
  the stretch after it forms and sums the messages and reshapes the second bias, region 3 adds the bias and clamps.
-/
import proofs.«159940_j11510512353283_1_alg».proof.Proof.Layer1

set_option maxRecDepth 16384

noncomputable section

open Idealize.ShloMosaic Idealize.ShloMosaic.TcCoe Idealize.SL.Sem Idealize.ShloMosaic.StableHlo
open Idealize.ShloMosaic.Pipeline (Dat)

namespace Cert.KernelIdeal.Boundary

open Cert.KernelIdeal Cert.KernelIdeal.Gen Cert.ReferenceIdeal.ReadP Cert.KernelIdeal.RowsProduct Cert.KernelIdeal.BiasClamp

variable (m : (ℓ : Loc nD τ sig) → Buf (Elt Ideal) ℓ) (ρ : Dev nD → PrngReg)

/-- The second weights are as launched when region 2 is entered. -/
theorem arg4_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by stretch_keeps hostOps1
    _ = W3 m ρ c (Proc.devRef .tc main_arg4) := W4_of_ne m ρ c main_arg4 (by decide)
    _ = W2 m ρ c (Proc.devRef .tc main_arg4) := by stretch_keeps hostOps0_2
    _ = W1 m ρ c (Proc.devRef .tc main_arg4) := by stretch_keeps hostOps0_1
    _ = W0 m ρ c (Proc.devRef .tc main_arg4) := by stretch_keeps hostOps0
    _ = m ((c : Thread nD τ).loc main_arg4) := rfl
/-- After region 2: the first hidden layer times the second weights. -/
theorem product2_at7 (c : Dev nD) : W7 m ρ c (Proc.devRef .tc main_v51) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((final2 (V6 m ρ) c).trans
    ((congrArg₂ timesRows128 (hidden1_at6 m ρ c) (arg4_at6 m ρ c)).trans ((Meets.timesRows128_meets _ _).trans rfl)))
/-- The second bias is as launched where it is reshaped. -/
theorem arg5_at7 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by stretch_keeps hostOps1
    _ = W3 m ρ c (Proc.devRef .tc main_arg5) := W4_of_ne m ρ c main_arg5 (by decide)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = m ((c : Thread nD τ).loc main_arg5) := rfl
set_option maxHeartbeats 4000000 in
/-- The second layer's messages, gathered, weighted and summed. -/
theorem messages2_at8 (c : Dev nD) : W8 m ρ c (Proc.devRef .tc main_v64) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h0 := product2_at7 m ρ c
  have h1 := sources_at7 m ρ c
  have h2 := targets_at7 m ρ c
  have h3 := weights_at7 m ρ c
  show StableHlo.after hostOps3 (W7 m ρ c) (Proc.devRef .tc main_v64) = _
  generalize W7 m ρ c = U at h0 h1 h2 h3 ⊢
  after_results
  rw [h0, h1, h2, h3]
  simp only [val_main_c_11, val_main_v54, val_main_v55, val_main_c_12, val_main_v56, val_main_v57, val_main_v58, val_main_v59, val_main_v60, val_main_v61, val_main_v62, val_main_v63, val_main_cst_13, val_main_v64, val_main_v65, val_main_v66] <;> rfl
set_option maxHeartbeats 4000000 in
/-- The second bias as one row. -/
theorem biasRow2_at8 (c : Dev nD) : W8 m ρ c (Proc.devRef .tc main_v65) = (shapeCast S1x128 (m ((c : Thread nD τ).loc main_arg5) : FVec Ideal S128 .f32) shapeCasts_S128_S1x128 : FVec Ideal S1x128 .f32) := by
  have h0 := arg5_at7 m ρ c
  show StableHlo.after hostOps3 (W7 m ρ c) (Proc.devRef .tc main_v65) = _
  generalize W7 m ρ c = U at h0 ⊢
  after_results
  rw [h0]
  rfl
/-- After region 3: the second hidden layer. -/
theorem hidden2_at9 (c : Dev nD) : W9 m ρ c (Proc.devRef .tc main_v66) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((final3 (V8 m ρ) c).trans
    ((congrArg₂ addRowClamp (messages2_at8 m ρ c) (biasRow2_at8 m ρ c)).trans ((Meets.addRowClamp_meets _ _).trans rfl)))

end Cert.KernelIdeal.Boundary

end
-- ==== Proof.Layer3.lean ====
/-
  The third layer and the result, read off the kernel's program: region 4 multiplies the second hidden layer by the
  third weights, the stretch after it forms and sums the messages, region 5 multiplies the node features by the residual
  weights, the last stretch reshapes the two last biases, and region 6 adds the four together in the reference's
  grouping. The result buffer ends holding the reference's last stage of the ten arguments.
-/
import proofs.«159940_j11510512353283_1_alg».proof.Proof.Layer2

set_option maxRecDepth 16384

noncomputable section

open Idealize.ShloMosaic Idealize.ShloMosaic.TcCoe Idealize.SL.Sem Idealize.ShloMosaic.StableHlo
open Idealize.ShloMosaic.Pipeline (Dat)

namespace Cert.KernelIdeal.Boundary

open Cert.KernelIdeal Cert.KernelIdeal.Gen Cert.ReferenceIdeal.ReadP Cert.KernelIdeal.RowsProduct Cert.KernelIdeal.Combine

variable (m : (ℓ : Loc nD τ sig) → Buf (Elt Ideal) ℓ) (ρ : Dev nD → PrngReg)

/-- The third weights are as launched when region 4 is entered. -/
theorem arg6_at9 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := by stretch_keeps hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by stretch_keeps hostOps1
    _ = W3 m ρ c (Proc.devRef .tc main_arg6) := W4_of_ne m ρ c main_arg6 (by decide)
    _ = W2 m ρ c (Proc.devRef .tc main_arg6) := by stretch_keeps hostOps0_2
    _ = W1 m ρ c (Proc.devRef .tc main_arg6) := by stretch_keeps hostOps0_1
    _ = W0 m ρ c (Proc.devRef .tc main_arg6) := by stretch_keeps hostOps0
    _ = m ((c : Thread nD τ).loc main_arg6) := rfl
/-- After region 4: the second hidden layer times the third weights. -/
theorem product3_at10 (c : Dev nD) : W10 m ρ c (Proc.devRef .tc main_v67) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 2).trans ((final4 (V9 m ρ) c).trans
    ((congrArg₂ timesRows64 (hidden2_at9 m ρ c) (arg6_at9 m ρ c)).trans ((Meets.timesRows64_meets _ _).trans rfl)))
set_option maxHeartbeats 4000000 in
/-- The third layer's messages, gathered, weighted and summed. -/
theorem messages3_at11 (c : Dev nD) : W11 m ρ c (Proc.devRef .tc main_v80) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h0 := product3_at10 m ρ c
  have h1 := sources_at10 m ρ c
  have h2 := targets_at10 m ρ c
  have h3 := weights_at10 m ρ c
  show StableHlo.after hostOps5 (W10 m ρ c) (Proc.devRef .tc main_v80) = _
  generalize W10 m ρ c = U at h0 h1 h2 h3 ⊢
  after_results
  rw [h0, h1, h2, h3]
  simp only [val_main_c_14, val_main_v72, val_main_v73, val_main_c_15, val_main_v74, val_main_v75, val_main_v76, val_main_v77, val_main_v78, val_main_v79, val_main_v80, val_main_v81, val_main_cst_16, val_main_v82, val_main_v83, val_main_v84] <;> rfl
/-- The node features are as launched when region 5 is entered. -/
theorem arg0_at11 (c : Dev nD) : W11 m ρ c (Proc.devRef .tc main_arg0) = m ((c : Thread nD τ).loc main_arg0) :=
  calc W11 m ρ c (Proc.devRef .tc main_arg0)
    _ = W10 m ρ c (Proc.devRef .tc main_arg0) := by stretch_keeps hostOps5
    _ = W9 m ρ c (Proc.devRef .tc main_arg0) := W10_of_ne m ρ c main_arg0 (by decide)
    _ = W8 m ρ c (Proc.devRef .tc main_arg0) := W9_of_ne m ρ c main_arg0 (by decide)
    _ = W7 m ρ c (Proc.devRef .tc main_arg0) := by stretch_keeps hostOps3
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := by stretch_keeps hostOps1
    _ = W3 m ρ c (Proc.devRef .tc main_arg0) := (W4_arr m ρ c 0).trans (((dat0 (V3 m ρ) c).arrAt_in 0 rfl _).trans (A_eq0 (V3 m ρ) c 0))
    _ = m ((c : Thread nD τ).loc main_arg0) := arg0_at3 m ρ c
/-- The residual weights are as launched when region 5 is entered. -/
theorem arg8_at11 (c : Dev nD) : W11 m ρ c (Proc.devRef .tc main_arg8) = m ((c : Thread nD τ).loc main_arg8) :=
  calc W11 m ρ c (Proc.devRef .tc main_arg8)
    _ = W10 m ρ c (Proc.devRef .tc main_arg8) := by stretch_keeps hostOps5
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by stretch_keeps hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by stretch_keeps hostOps1
    _ = W3 m ρ c (Proc.devRef .tc main_arg8) := W4_of_ne m ρ c main_arg8 (by decide)
    _ = W2 m ρ c (Proc.devRef .tc main_arg8) := by stretch_keeps hostOps0_2
    _ = W1 m ρ c (Proc.devRef .tc main_arg8) := by stretch_keeps hostOps0_1
    _ = W0 m ρ c (Proc.devRef .tc main_arg8) := by stretch_keeps hostOps0
    _ = m ((c : Thread nD τ).loc main_arg8) := rfl
/-- After region 5: the node features times the residual weights. -/
theorem residual_at12 (c : Dev nD) : W12 m ρ c (Proc.devRef .tc main_v81) = val_main_v88 (F := Ideal) (m ((c : Thread nD τ).loc main_arg0)) (m ((c : Thread nD τ).loc main_arg8)) :=
  (W12_arr m ρ c 2).trans ((final5 (V11 m ρ) c).trans
    ((congrArg₂ timesRows64 (arg0_at11 m ρ c) (arg8_at11 m ρ c)).trans (Meets.timesRows64_meets _ _)))
/-- The third layer's summed messages are untouched until the last region reads them. -/
theorem messages3_at13 (c : Dev nD) : W13 m ρ c (Proc.devRef .tc main_v80) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  calc W13 m ρ c (Proc.devRef .tc main_v80)
    _ = W12 m ρ c (Proc.devRef .tc main_v80) := by stretch_keeps hostOps6
    _ = W11 m ρ c (Proc.devRef .tc main_v80) := W12_of_ne m ρ c main_v80 (by decide)
    _ = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := messages3_at11 m ρ c
/-- The residual product is untouched until the last region reads it. -/
theorem residual_at13 (c : Dev nD) : W13 m ρ c (Proc.devRef .tc main_v81) = val_main_v88 (F := Ideal) (m ((c : Thread nD τ).loc main_arg0)) (m ((c : Thread nD τ).loc main_arg8)) :=
  calc W13 m ρ c (Proc.devRef .tc main_v81)
    _ = W12 m ρ c (Proc.devRef .tc main_v81) := by stretch_keeps hostOps6
    _ = val_main_v88 (F := Ideal) (m ((c : Thread nD τ).loc main_arg0)) (m ((c : Thread nD τ).loc main_arg8)) := residual_at12 m ρ c
/-- The third bias is as launched where it is reshaped. -/
theorem arg7_at12 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := by stretch_keeps hostOps5
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by stretch_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by stretch_keeps hostOps1
    _ = W3 m ρ c (Proc.devRef .tc main_arg7) := W4_of_ne m ρ c main_arg7 (by decide)
    _ = W2 m ρ c (Proc.devRef .tc main_arg7) := by stretch_keeps hostOps0_2
    _ = W1 m ρ c (Proc.devRef .tc main_arg7) := by stretch_keeps hostOps0_1
    _ = W0 m ρ c (Proc.devRef .tc main_arg7) := by stretch_keeps hostOps0
    _ = m ((c : Thread nD τ).loc main_arg7) := rfl
/-- The residual bias is as launched where it is reshaped. -/
theorem arg9_at12 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := by stretch_keeps hostOps5
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by stretch_keeps hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by stretch_keeps hostOps1
    _ = W3 m ρ c (Proc.devRef .tc main_arg9) := W4_of_ne m ρ c main_arg9 (by decide)
    _ = W2 m ρ c (Proc.devRef .tc main_arg9) := by stretch_keeps hostOps0_2
    _ = W1 m ρ c (Proc.devRef .tc main_arg9) := by stretch_keeps hostOps0_1
    _ = W0 m ρ c (Proc.devRef .tc main_arg9) := by stretch_keeps hostOps0
    _ = m ((c : Thread nD τ).loc main_arg9) := rfl
set_option maxHeartbeats 4000000 in
/-- The third bias as one row. -/
theorem biasRow3_at13 (c : Dev nD) : W13 m ρ c (Proc.devRef .tc main_v82) = (shapeCast S1x64 (m ((c : Thread nD τ).loc main_arg7) : FVec Ideal S64 .f32) shapeCasts_S64_S1x64 : FVec Ideal S1x64 .f32) := by
  have h0 := arg7_at12 m ρ c
  show StableHlo.after hostOps6 (W12 m ρ c) (Proc.devRef .tc main_v82) = _
  generalize W12 m ρ c = U at h0 ⊢
  after_results
  rw [h0]
  rfl
set_option maxHeartbeats 4000000 in
/-- The residual bias as one row. -/
theorem biasRowRes_at13 (c : Dev nD) : W13 m ρ c (Proc.devRef .tc main_v83) = (shapeCast S1x64 (m ((c : Thread nD τ).loc main_arg9) : FVec Ideal S64 .f32) shapeCasts_S64_S1x64 : FVec Ideal S1x64 .f32) := by
  have h0 := arg9_at12 m ρ c
  show StableHlo.after hostOps6 (W12 m ρ c) (Proc.devRef .tc main_v83) = _
  generalize W12 m ρ c = U at h0 ⊢
  after_results
  rw [h0]
  rfl
/-- The last region's function respects equal arguments. -/
theorem addBoth_congr {A A' R R' : FVec Ideal S50000x64 .f32} {ba ba' br br' : FVec Ideal S1x64 .f32}
    (h1 : A = A') (h2 : ba = ba') (h3 : R = R') (h4 : br = br') : addBoth A ba R br = addBoth A' ba' R' br' := by
  subst h1 h2 h3 h4; rfl

/-- After region 6: the result, the reference's last stage of the ten arguments. -/
theorem result_at14 (c : Dev nD) : W14 m ρ c (Proc.devRef .tc main_v84) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W14_arr m ρ c 4).trans ((final6 (V13 m ρ) c).trans
    ((addBoth_congr (messages3_at13 m ρ c) (biasRow3_at13 m ρ c) (residual_at13 m ρ c) (biasRowRes_at13 m ρ c)).trans
      ((Meets.addBoth_meets _ _ _ _).trans rfl)))

end Cert.KernelIdeal.Boundary

end
-- ==== Proof.lean ====
/-
  The certificate's five claims.

  Both programs compute three graph-convolution layers and a residual projection: each layer multiplies the current
  node array by a weight matrix, gathers the product's rows at the edges' sources, scales them by the symmetric
  degree normalisation, sums them at the edges' targets and adds a bias, with a clamp at zero after the first two
  layers; the result is (third layer + its bias) + (features times residual weights + its bias). The kernel's program
  does the products, the two bias-and-clamp steps and the final sum in seven tiled kernel regions (ten blocks of 5000
  rows each, operands rounded to bf16 on the way into the products) and everything else on the host; the reference
  does all of it on the host.

  At the exact values the rounding is the identity, a block of a product is the block of the product, and the ten row
  blocks tile each array, so every region leaves in its output array the same whole-array function the reference
  applies (RowsProduct, BiasClamp, Combine, Meets); the host operations between the regions are the reference's own
  (GraphNorm, Layer1, Layer2, Layer3). Hence the kernel's run ends with its result buffer at the reference's last stage
  of the ten arguments, and so does the reference's run: the results are equal entry by entry. No algebraic law
  beyond this re-tiling is used, so the finiteness of the inputs is never opened.

  The three frame claims: the two kernel programs' by their generated frame proofs; the reference's is its run with
  the result dropped. The idealization rewrote nothing, so `preserves` asks nothing.
-/
import proofs.«159940_j11510512353283_1_alg».proof.Defs
import proofs.«159940_j11510512353283_1_alg».proof.Proof.Gen.Kernel
import proofs.«159940_j11510512353283_1_alg».proof.Proof.Gen.Kernel.Frame
import proofs.«159940_j11510512353283_1_alg».proof.Proof.Gen.KernelIdeal
import proofs.«159940_j11510512353283_1_alg».proof.Proof.Gen.KernelIdeal.Frame
import proofs.«159940_j11510512353283_1_alg».proof.Proof.Gen.ReferenceIdeal
import proofs.«159940_j11510512353283_1_alg».proof.Proof.Gen.Pre_finite_inputs
import proofs.«159940_j11510512353283_1_alg».proof.Proof.RunNamed
import proofs.«159940_j11510512353283_1_alg».proof.Proof.Layer3
import proofs.«159940_j11510512353283_1_alg».proof.Proof.RefRunPatched
import proofs.«159940_j11510512353283_1_alg».proof.Proof.RefReadPatched
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨fun c => Cert.ReferenceIdeal.ReadP.val_main_v92 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Boundary.result_at14 m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v92_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
